-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S3x256x256 : Shape := ⟨3, ![3, 256, 256]⟩
abbrev S3x256 : Shape := ⟨2, ![3, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn {F : FTy → Type} [FloatOps F] (main_arg0 : FVec F S50000x256 .f32) (main_arg1 : IVec S2x800000 32) (main_arg2 : FVec F S3x256x256 .f32) (main_arg3 : FVec F S3x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S3x256x256 .f32 := Host.absf main_arg2
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg3
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  main_v13
-- ==== Kernel.lean ====
abbrev S50000x256 : Shape := ⟨2, ![50000, 256]⟩
abbrev S2x800000 : Shape := ⟨2, ![2, 800000]⟩
abbrev S3x256x256 : Shape := ⟨3, ![3, 256, 256]⟩
abbrev S3x256 : Shape := ⟨2, ![3, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x256x256 : Shape := ⟨3, ![1, 256, 256]⟩
abbrev S256x256 : Shape := ⟨2, ![256, 256]⟩
abbrev S5000x256 : Shape := ⟨2, ![5000, 256]⟩
abbrev S850000x256 : Shape := ⟨2, ![850000, 256]⟩
abbrev S1x256 : Shape := ⟨2, ![1, 256]⟩
abbrev S256 : Shape := ⟨1, ![256]⟩

abbrev nBuf : Space → Nat
  | .hbm => 111
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S3x256x256, .f32⟩
  | .hbm, ⟨3, _⟩ => ⟨S3x256, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S1x256x256, .f32⟩
  | .hbm, ⟨46, _⟩ => ⟨S256x256, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S256, .f32⟩
  | .hbm, ⟨65, _⟩ => ⟨S1x256, .f32⟩
  | .hbm, ⟨66, _⟩ => ⟨S50000x256, .f32⟩
  | .hbm, ⟨67, _⟩ => ⟨S1x256x256, .f32⟩
  | .hbm, ⟨68, _⟩ => ⟨S256x256, .f32⟩
  | .hbm, ⟨69, _⟩ => ⟨S50000x256, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x256, .f32⟩
  | .hbm, ⟨79, _⟩ => ⟨S850000x256, .f32⟩
  | .hbm, ⟨80, _⟩ => ⟨S850000x256, .f32⟩
  | .hbm, ⟨81, _⟩ => ⟨S_, .f32⟩
  | .hbm, ⟨82, _⟩ => ⟨S50000x256, .f32⟩
  | .hbm, ⟨83, _⟩ => ⟨S850000x1, .i32⟩
  | .hbm, ⟨84, _⟩ => ⟨S50000x256, .f32⟩
  | .hbm, ⟨85, _⟩ => ⟨S1x256, .f32⟩
  | .hbm, ⟨86, _⟩ => ⟨S256, .f32⟩
  | .hbm, ⟨87, _⟩ => ⟨S1x256, .f32⟩
  | .hbm, ⟨88, _⟩ => ⟨S50000x256, .f32⟩
  | .hbm, ⟨89, _⟩ => ⟨S1x256x256, .f32⟩
  | .hbm, ⟨90, _⟩ => ⟨S256x256, .f32⟩
  | .hbm, ⟨91, _⟩ => ⟨S50000x256, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x256, .f32⟩
  | .hbm, ⟨101, _⟩ => ⟨S850000x256, .f32⟩
  | .hbm, ⟨102, _⟩ => ⟨S850000x256, .f32⟩
  | .hbm, ⟨103, _⟩ => ⟨S_, .f32⟩
  | .hbm, ⟨104, _⟩ => ⟨S50000x256, .f32⟩
  | .hbm, ⟨105, _⟩ => ⟨S850000x1, .i32⟩
  | .hbm, ⟨106, _⟩ => ⟨S50000x256, .f32⟩
  | .hbm, ⟨107, _⟩ => ⟨S1x256, .f32⟩
  | .hbm, ⟨108, _⟩ => ⟨S256, .f32⟩
  | .hbm, ⟨109, _⟩ => ⟨S1x256, .f32⟩
  | .hbm, ⟨110, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S1x256, .f32⟩
  | .local _ .vmem, ⟨28, _⟩ => ⟨S5000x256, .f32⟩
  | .local _ .vmem, ⟨29, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_12 : Ref sig .tc := ⟨.hbm, 92, rfl⟩
abbrev main_v72 : Ref sig .tc := ⟨.hbm, 93, rfl⟩
abbrev main_v73 : Ref sig .tc := ⟨.hbm, 94, rfl⟩
abbrev main_c_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_14 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x256x256_S1x256x256_0_0_0 : S3x256x256.Slices ![0, 0, 0] S1x256x256
  shapeCasts_S1x256x256_S256x256 : S1x256x256.ShapeCasts S256x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  slices_S3x256_S1x256_0_0 : S3x256.Slices ![0, 0] S1x256
  shapeCasts_S1x256_S256 : S1x256.ShapeCasts S256
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x256.size a ≤ S50000x256.size a
  hwx5_2 : ∀ i : grid5.Coords, EltTy.bits .f32 = 32 ∨ (Rect.block (s := S50000x256) S5000x256.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S5000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S3x256x256 : Shape := ⟨3, ![3, 256, 256]⟩
abbrev S3x256 : Shape := ⟨2, ![3, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x256x256 : Shape := ⟨3, ![1, 256, 256]⟩
abbrev S256x256 : Shape := ⟨2, ![256, 256]⟩
abbrev S850000x256 : Shape := ⟨2, ![850000, 256]⟩
abbrev S1x256 : Shape := ⟨2, ![1, 256]⟩
abbrev S256 : Shape := ⟨1, ![256]⟩

abbrev nBuf : Space → Nat
  | .hbm => 123
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S3x256x256, .f32⟩
  | .hbm, ⟨3, _⟩ => ⟨S3x256, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S1x256x256, .f32⟩
  | .hbm, ⟨46, _⟩ => ⟨S256x256, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S1x256x256, .f32⟩
  | .hbm, ⟨72, _⟩ => ⟨S256x256, .f32⟩
  | .hbm, ⟨73, _⟩ => ⟨S50000x256, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x256, .f32⟩
  | .hbm, ⟨83, _⟩ => ⟨S850000x256, .f32⟩
  | .hbm, ⟨84, _⟩ => ⟨S850000x256, .f32⟩
  | .hbm, ⟨85, _⟩ => ⟨S_, .f32⟩
  | .hbm, ⟨86, _⟩ => ⟨S50000x256, .f32⟩
  | .hbm, ⟨87, _⟩ => ⟨S850000x1, .i32⟩
  | .hbm, ⟨88, _⟩ => ⟨S50000x256, .f32⟩
  | .hbm, ⟨89, _⟩ => ⟨S1x256, .f32⟩
  | .hbm, ⟨90, _⟩ => ⟨S256, .f32⟩
  | .hbm, ⟨91, _⟩ => ⟨S1x256, .f32⟩
  | .hbm, ⟨92, _⟩ => ⟨S50000x256, .f32⟩
  | .hbm, ⟨93, _⟩ => ⟨S50000x256, .f32⟩
  | .hbm, ⟨94, _⟩ => ⟨S_, .f32⟩
  | .hbm, ⟨95, _⟩ => ⟨S50000x256, .f32⟩
  | .hbm, ⟨96, _⟩ => ⟨S50000x256, .f32⟩
  | .hbm, ⟨97, _⟩ => ⟨S1x256x256, .f32⟩
  | .hbm, ⟨98, _⟩ => ⟨S256x256, .f32⟩
  | .hbm, ⟨99, _⟩ => ⟨S50000x256, .f32⟩
  | .hbm, ⟨100, _⟩ => ⟨S_, .i32⟩
  | .hbm, ⟨101, _⟩ => ⟨S850000, .i32⟩
  | .hbm, ⟨102, _⟩ => ⟨S850000, .i1⟩
  | .hbm, ⟨103, _⟩ => ⟨S_, .i32⟩
  | .hbm, ⟨104, _⟩ => ⟨S850000, .i32⟩
  | .hbm, ⟨105, _⟩ => ⟨S850000, .i32⟩
  | .hbm, ⟨106, _⟩ => ⟨S850000, .i32⟩
  | .hbm, ⟨107, _⟩ => ⟨S850000x1, .i32⟩
  | .hbm, ⟨108, _⟩ => ⟨S850000x256, .f32⟩
  | .hbm, ⟨109, _⟩ => ⟨S850000x256, .f32⟩
  | .hbm, ⟨110, _⟩ => ⟨S850000x256, .f32⟩
  | .hbm, ⟨111, _⟩ => ⟨S_, .f32⟩
  | .hbm, ⟨112, _⟩ => ⟨S50000x256, .f32⟩
  | .hbm, ⟨113, _⟩ => ⟨S850000x1, .i32⟩
  | .hbm, ⟨114, _⟩ => ⟨S50000x256, .f32⟩
  | .hbm, ⟨115, _⟩ => ⟨S1x256, .f32⟩
  | .hbm, ⟨116, _⟩ => ⟨S256, .f32⟩
  | .hbm, ⟨117, _⟩ => ⟨S1x256, .f32⟩
  | .hbm, ⟨118, _⟩ => ⟨S50000x256, .f32⟩
  | .hbm, ⟨119, _⟩ => ⟨S50000x256, .f32⟩
  | .hbm, ⟨120, _⟩ => ⟨S_, .f32⟩
  | .hbm, ⟨121, _⟩ => ⟨S50000x256, .f32⟩
  | .hbm, ⟨122, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call1_cst : Ref sig .tc := ⟨.hbm, 68, rfl⟩
abbrev main_call1_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call2_cst : Ref sig .tc := ⟨.hbm, 94, rfl⟩
abbrev main_call2_v0 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_12 : Ref sig .tc := ⟨.hbm, 100, rfl⟩
abbrev main_v76 : Ref sig .tc := ⟨.hbm, 101, rfl⟩
abbrev main_v77 : Ref sig .tc := ⟨.hbm, 102, rfl⟩
abbrev main_c_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_14 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_call3_cst : Ref sig .tc := ⟨.hbm, 120, rfl⟩
abbrev main_call3_v0 : Ref sig .tc := ⟨.hbm, 121, rfl⟩
abbrev main_v93 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x256x256_S1x256x256_0_0_0 : S3x256x256.Slices ![0, 0, 0] S1x256x256
  shapeCasts_S1x256x256_S256x256 : S1x256x256.ShapeCasts S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KernelRun.lean ====
/-
  The idealized kernel's run, with its result named.

  @main is fourteen segments: stretches of host operations and six pipelined regions in turn.  The buffer contents at
  the boundaries are a fold from the launch memory: a host stretch rewrites the buffers its operations write, a region
  rewrites its output array with what its grid points write back.  Every weakly fair execution terminates, without a
  fault, in a memory where every buffer that outlives the kernels holds the last boundary's contents; here that is read at
  the result buffer (the last region's output) and at the four argument arrays, which end as launched.
-/
import proofs.«128485_j13271448945348_1_alg».proof.Proof.Gen.KernelIdeal.Frame

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the contents the fold
    through the fourteen segments gives it and the four arguments as launched. -/
theorem run_final : θ_run defs (onTc (τ := τ) (main (F := F))) ⟨m, fun _ => 0, ρ⟩ (fun r => ∀ c : Dev nD,
      r.2.mem ((c.tc : Thread nD τ).loc main_v87) = W14 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v87 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩)

end Cert.KernelIdeal.Final

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.DenseBlocks.lean ====
/-
  The three dense regions of the idealized kernel, each read as a whole array.

  A dense region multiplies a [50000, 256] array by a [256, 256] matrix over a grid of ten points; point t loads rows
  5000·t … 5000·t + 4999 of the left array and the whole matrix, and writes back the same rows of the product.  Entry (r, j)
  of the product is the sum over k of left (r, k) · right (k, j); it depends on one row of the left array only, so a block
  of the product is the product of the block, and the ten blocks tile the rows.  The region's output array therefore ends
  holding the product of the two arrays as the region found them, whatever those were.
-/
import proofs.«128485_j13271448945348_1_alg».proof.Proof.Gen.KernelIdeal.Frame
import proofs.«128485_j13271448945348_1_alg».proof.Proof.LibDense
import Idealize.ShloMosaic.Lib.Pipeline.Value
import Idealize.ShloMosaic.Lib.ValueIdx

set_option maxRecDepth 16384

noncomputable section

namespace Cert.KernelIdeal.Dense

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The bodies load and store at the origin of their staging buffers. -/
theorem zero_off : (![0, 0] : Fin 2 → Nat) = fun _ => 0 := funext fun a => by fin_cases a <;> rfl

/-! ## Region 0: the dense product of `main_arg0` [50000, 256] and `main_v32` [256, 256], ten blocks of 5000 rows -/

/-- The body's stored value at an entry: both operands pass through a change of float format, which keeps the value, and
    the product into the zero accumulator is the row-by-column sum. -/
theorem pay0 (x0 : Vec Ideal S5000x256 .f32) (x1 : Vec Ideal S256x256 .f32) (j : S5000x256.Idx) :
    k0_pay1 (F := Ideal) x0 x1 j = Cert.LibDense.prod x0 x1 j := by
  unfold k0_pay1
  refine (Cert.LibDense.matmul_plain (M := 5000) (K := 256) (N := 256) (φ₁ := .bf16) (φ₂ := .bf16)
    (truncf .bf16 x0 bitsLt_bf16_f32)
    (truncf .bf16 (shapeCast S256x256 x1 shapeCasts_S256x256_S256x256) bitsLt_bf16_f32) j).trans ?_
  show Cert.LibDense.prod x0 (shapeCast S256x256 x1 shapeCasts_S256x256_S256x256) j = _
  rw [shapeCast_self]

/-- The windows' block indices over the grid: the row operand and the output move together along the rows, the weight
    stays, nothing moves along the columns. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem onto0 : ∀ q : Fin 10, ∃ t : Fin cfg0.N, win0_2.index t = ![q.val, 0] :=
  (by decide +kernel : ∀ q : Fin 10, ∃ t : Fin grid0.N, win0_2.index t = ![q.val, 0])

/-- What point `t` writes back is block `t` of the product of the two arrays as the region finds them: row r of the block
    is row 5000·(block index) + r of the left array, against the whole right array. -/
theorem flushed0 (c : Dev nD) (t : Fin cfg0.N) :
    (dat0 V c).flushed 2 t = ((cfg0.win 2).blk t).view.read (Elt Ideal) (Cert.LibDense.prod (V c main_arg0) (V c main_v32)) := by
  show (cfg0.win 2).cut (grid0.coords t) ((dat0 V c).after 2 t) = _
  rw [after0_2]
  unfold out0_2
  rw [View.canon_unit_zero zero_off]
  simp only [View.ld_unit_zero (S := S5000x256) zero_off, View.ld_unit_zero (S := S256x256) zero_off]
  obtain ⟨e0, e1, e2, e3, e4, e5⟩ := idx0 t
  funext j
  show k0_pay1 (F := Ideal) (iblk0 V c 0 t) (iblk0 V c 1 t) j = Cert.LibDense.prod (V c main_arg0) (V c main_v32) (((cfg0.win 2).blk t).view.emb j)
  refine (pay0 (iblk0 V c 0 t) (iblk0 V c 1 t) j).trans ?_
  unfold Cert.LibDense.prod
  refine Finset.sum_congr rfl fun q _ => ?_
  have hq : q.val < 256 := q.isLt
  have hj0 : (j 0).val < 5000 := (j 0).isLt
  have hj1 : (j 1).val < 256 := (j 1).isLt
  have h0 : ((cfg0.win 0).blk t).view.emb (ix2 (j 0) q) = ix2 ((((cfg0.win 2).blk t).view.emb j) 0) q := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * q.val = q.val; omega
  have h1 : ((cfg0.win 1).blk t).view.emb (ix2 q (j 1)) = ix2 q ((((cfg0.win 2).blk t).view.emb j) 1) := by
    funext a; apply Fin.ext
    match a with
    | ⟨0, _⟩ => show win0_1.index t (0 : Fin 2) * 256 + 1 * q.val = q.val; omega
    | ⟨1, _⟩ => show win0_1.index t (1 : Fin 2) * 256 + 1 * (j 1).val = win0_2.index t (1 : Fin 2) * 256 + 1 * (j 1).val; omega
  have entry : ∀ (A : S50000x256.Idx → EReal) (B : S256x256.Idx → EReal),
      A (((cfg0.win 0).blk t).view.emb (ix2 (j 0) q)) * B (((cfg0.win 1).blk t).view.emb (ix2 q (j 1)))
        = A (ix2 ((((cfg0.win 2).blk t).view.emb j) 0) q) * B (ix2 q ((((cfg0.win 2).blk t).view.emb j) 1)) := by
    intro A B; rw [h0, h1]; rfl
  exact entry (V c main_arg0) (V c main_v32)

/-- An entry of the output array is in point `t`'s block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v33).slice (win0_2.rect t)).set ↔ _
  rw [View.set_slice_whole, Rect.mem_set_unit]
  exact Iff.rfl

/-- The ten blocks cover the array: row r lies in block r / 5000. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The output array after the region: the product of the two arrays as the region finds them. -/
theorem dense0 (c : Dev nD) : (dat0 V c).arrAt 2 cfg0.N = Cert.LibDense.prod (V c main_arg0) (V c main_v32) :=
  (dat0 V c).arrAt_eq_of_cover 2 _ (fun t _ => flushed0 V c t) (cover0)

/-! ## Region 2: the dense product of `main_v49` [50000, 256] and `main_v51` [256, 256], ten blocks of 5000 rows -/

/-- The body's stored value at an entry: both operands pass through a change of float format, which keeps the value, and
    the product into the zero accumulator is the row-by-column sum. -/
theorem pay2 (x0 : Vec Ideal S5000x256 .f32) (x1 : Vec Ideal S256x256 .f32) (j : S5000x256.Idx) :
    k2_pay1 (F := Ideal) x0 x1 j = Cert.LibDense.prod x0 x1 j := by
  unfold k2_pay1
  refine (Cert.LibDense.matmul_plain (M := 5000) (K := 256) (N := 256) (φ₁ := .bf16) (φ₂ := .bf16)
    (truncf .bf16 (shapeCast S5000x256 x0 shapeCasts_S5000x256_S5000x256) bitsLt_bf16_f32)
    (truncf .bf16 (shapeCast S256x256 x1 shapeCasts_S256x256_S256x256) bitsLt_bf16_f32) j).trans ?_
  show Cert.LibDense.prod (shapeCast S5000x256 x0 shapeCasts_S5000x256_S5000x256) (shapeCast S256x256 x1 shapeCasts_S256x256_S256x256) j = _
  rw [shapeCast_self, shapeCast_self]

/-- The windows' block indices over the grid: the row operand and the output move together along the rows, the weight
    stays, nothing moves along the columns. -/
theorem idx2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some point's. -/
theorem onto2 : ∀ q : Fin 10, ∃ t : Fin cfg2.N, win2_2.index t = ![q.val, 0] :=
  (by decide +kernel : ∀ q : Fin 10, ∃ t : Fin grid2.N, win2_2.index t = ![q.val, 0])

/-- What point `t` writes back is block `t` of the product of the two arrays as the region finds them: row r of the block
    is row 5000·(block index) + r of the left array, against the whole right array. -/
theorem flushed2 (c : Dev nD) (t : Fin cfg2.N) :
    (dat2 V c).flushed 2 t = ((cfg2.win 2).blk t).view.read (Elt Ideal) (Cert.LibDense.prod (V c main_v49) (V c main_v51)) := by
  show (cfg2.win 2).cut (grid2.coords t) ((dat2 V c).after 2 t) = _
  rw [after2_2]
  unfold out2_2
  rw [View.canon_unit_zero zero_off]
  simp only [View.ld_unit_zero (S := S5000x256) zero_off, View.ld_unit_zero (S := S256x256) zero_off]
  obtain ⟨e0, e1, e2, e3, e4, e5⟩ := idx2 t
  funext j
  show k2_pay1 (F := Ideal) (iblk2 V c 0 t) (iblk2 V c 1 t) j = Cert.LibDense.prod (V c main_v49) (V c main_v51) (((cfg2.win 2).blk t).view.emb j)
  refine (pay2 (iblk2 V c 0 t) (iblk2 V c 1 t) j).trans ?_
  unfold Cert.LibDense.prod
  refine Finset.sum_congr rfl fun q _ => ?_
  have hq : q.val < 256 := q.isLt
  have hj0 : (j 0).val < 5000 := (j 0).isLt
  have hj1 : (j 1).val < 256 := (j 1).isLt
  have h0 : ((cfg2.win 0).blk t).view.emb (ix2 (j 0) q) = ix2 ((((cfg2.win 2).blk t).view.emb j) 0) q := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 256 + 1 * q.val = q.val; omega
  have h1 : ((cfg2.win 1).blk t).view.emb (ix2 q (j 1)) = ix2 q ((((cfg2.win 2).blk t).view.emb j) 1) := by
    funext a; apply Fin.ext
    match a with
    | ⟨0, _⟩ => show win2_1.index t (0 : Fin 2) * 256 + 1 * q.val = q.val; omega
    | ⟨1, _⟩ => show win2_1.index t (1 : Fin 2) * 256 + 1 * (j 1).val = win2_2.index t (1 : Fin 2) * 256 + 1 * (j 1).val; omega
  have entry : ∀ (A : S50000x256.Idx → EReal) (B : S256x256.Idx → EReal),
      A (((cfg2.win 0).blk t).view.emb (ix2 (j 0) q)) * B (((cfg2.win 1).blk t).view.emb (ix2 q (j 1)))
        = A (ix2 ((((cfg2.win 2).blk t).view.emb j) 0) q) * B (ix2 q ((((cfg2.win 2).blk t).view.emb j) 1)) := by
    intro A B; rw [h0, h1]; rfl
  exact entry (V c main_v49) (V c main_v51)

/-- An entry of the output array is in point `t`'s block iff each coordinate is in the block's range on its axis. -/
theorem mem_blk2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v52).slice (win2_2.rect t)).set ↔ _
  rw [View.set_slice_whole, Rect.mem_set_unit]
  exact Iff.rfl

/-- The ten blocks cover the array: row r lies in block r / 5000. -/
theorem cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- The output array after the region: the product of the two arrays as the region finds them. -/
theorem dense2 (c : Dev nD) : (dat2 V c).arrAt 2 cfg2.N = Cert.LibDense.prod (V c main_v49) (V c main_v51) :=
  (dat2 V c).arrAt_eq_of_cover 2 _ (fun t _ => flushed2 V c t) (cover2)

/-! ## Region 4: the dense product of `main_v68` [50000, 256] and `main_v70` [256, 256], ten blocks of 5000 rows -/

/-- The body's stored value at an entry: both operands pass through a change of float format, which keeps the value, and
    the product into the zero accumulator is the row-by-column sum. -/
theorem pay4 (x0 : Vec Ideal S5000x256 .f32) (x1 : Vec Ideal S256x256 .f32) (j : S5000x256.Idx) :
    k4_pay1 (F := Ideal) x0 x1 j = Cert.LibDense.prod x0 x1 j := by
  unfold k4_pay1
  refine (Cert.LibDense.matmul_plain (M := 5000) (K := 256) (N := 256) (φ₁ := .bf16) (φ₂ := .bf16)
    (truncf .bf16 (shapeCast S5000x256 x0 shapeCasts_S5000x256_S5000x256) bitsLt_bf16_f32)
    (truncf .bf16 (shapeCast S256x256 x1 shapeCasts_S256x256_S256x256) bitsLt_bf16_f32) j).trans ?_
  show Cert.LibDense.prod (shapeCast S5000x256 x0 shapeCasts_S5000x256_S5000x256) (shapeCast S256x256 x1 shapeCasts_S256x256_S256x256) j = _
  rw [shapeCast_self, shapeCast_self]

/-- The windows' block indices over the grid: the row operand and the output move together along the rows, the weight
    stays, nothing moves along the columns. -/
theorem idx4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every one of the ten row blocks is some point's. -/
theorem onto4 : ∀ q : Fin 10, ∃ t : Fin cfg4.N, win4_2.index t = ![q.val, 0] :=
  (by decide +kernel : ∀ q : Fin 10, ∃ t : Fin grid4.N, win4_2.index t = ![q.val, 0])

/-- What point `t` writes back is block `t` of the product of the two arrays as the region finds them: row r of the block
    is row 5000·(block index) + r of the left array, against the whole right array. -/
theorem flushed4 (c : Dev nD) (t : Fin cfg4.N) :
    (dat4 V c).flushed 2 t = ((cfg4.win 2).blk t).view.read (Elt Ideal) (Cert.LibDense.prod (V c main_v68) (V c main_v70)) := by
  show (cfg4.win 2).cut (grid4.coords t) ((dat4 V c).after 2 t) = _
  rw [after4_2]
  unfold out4_2
  rw [View.canon_unit_zero zero_off]
  simp only [View.ld_unit_zero (S := S5000x256) zero_off, View.ld_unit_zero (S := S256x256) zero_off]
  obtain ⟨e0, e1, e2, e3, e4, e5⟩ := idx4 t
  funext j
  show k4_pay1 (F := Ideal) (iblk4 V c 0 t) (iblk4 V c 1 t) j = Cert.LibDense.prod (V c main_v68) (V c main_v70) (((cfg4.win 2).blk t).view.emb j)
  refine (pay4 (iblk4 V c 0 t) (iblk4 V c 1 t) j).trans ?_
  unfold Cert.LibDense.prod
  refine Finset.sum_congr rfl fun q _ => ?_
  have hq : q.val < 256 := q.isLt
  have hj0 : (j 0).val < 5000 := (j 0).isLt
  have hj1 : (j 1).val < 256 := (j 1).isLt
  have h0 : ((cfg4.win 0).blk t).view.emb (ix2 (j 0) q) = ix2 ((((cfg4.win 2).blk t).view.emb j) 0) q := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 256 + 1 * q.val = q.val; omega
  have h1 : ((cfg4.win 1).blk t).view.emb (ix2 q (j 1)) = ix2 q ((((cfg4.win 2).blk t).view.emb j) 1) := by
    funext a; apply Fin.ext
    match a with
    | ⟨0, _⟩ => show win4_1.index t (0 : Fin 2) * 256 + 1 * q.val = q.val; omega
    | ⟨1, _⟩ => show win4_1.index t (1 : Fin 2) * 256 + 1 * (j 1).val = win4_2.index t (1 : Fin 2) * 256 + 1 * (j 1).val; omega
  have entry : ∀ (A : S50000x256.Idx → EReal) (B : S256x256.Idx → EReal),
      A (((cfg4.win 0).blk t).view.emb (ix2 (j 0) q)) * B (((cfg4.win 1).blk t).view.emb (ix2 q (j 1)))
        = A (ix2 ((((cfg4.win 2).blk t).view.emb j) 0) q) * B (ix2 q ((((cfg4.win 2).blk t).view.emb j) 1)) := by
    intro A B; rw [h0, h1]; rfl
  exact entry (V c main_v68) (V c main_v70)

/-- An entry of the output array is in point `t`'s block iff each coordinate is in the block's range on its axis. -/
theorem mem_blk4 (t : Fin cfg4.N) (i : S50000x256.Idx) :
    i ∈ ((cfg4.win 2).blk t).view.set ↔ ∀ a : Fin 2, win4_2.index t a * S5000x256.size a ≤ (i a).val ∧ (i a).val < win4_2.index t a * S5000x256.size a + S5000x256.size a := by
  show i ∈ ((View.whole main_v71).slice (win4_2.rect t)).set ↔ _
  rw [View.set_slice_whole, Rect.mem_set_unit]
  exact Iff.rfl

/-- The ten blocks cover the array: row r lies in block r / 5000. -/
theorem cover4 (i : S50000x256.Idx) : ∃ t : Fin cfg4.N, (cfg4.win 2).flush t = true ∧ i ∈ ((cfg4.win 2).blk t).view.set := by
  have hi0 : (i 0).val < 50000 := (i 0).isLt
  have hi1 : (i 1).val < 256 := (i 1).isLt
  obtain ⟨t, ht⟩ := onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 256 ≤ (i 1).val ∧ (i 1).val < win4_2.index t (1 : Fin 2) * 256 + 256; omega

/-- The output array after the region: the product of the two arrays as the region finds them. -/
theorem dense4 (c : Dev nD) : (dat4 V c).arrAt 2 cfg4.N = Cert.LibDense.prod (V c main_v68) (V c main_v70) :=
  (dat4 V c).arrAt_eq_of_cover 2 _ (fun t _ => flushed4 V c t) (cover4)

end Cert.KernelIdeal.Dense

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.RectifyBlocks.lean ====
/-
  The three bias-and-rectifier regions of the idealized kernel, each read as a whole array.

  Such a region takes a [50000, 256] array and a row [1, 256] over a grid of ten points; point t loads rows
  5000·t … 5000·t + 4999 of the array and the whole row, and writes back max (entry + row entry of the column, 0) for those
  rows.  An entry of the result reads one entry of the array and one of the row, so a block of the result is the result of
  the block, and the ten blocks tile the rows: the output array ends holding the rectified sum of the two arrays as the
  region found them.
-/
import proofs.«128485_j13271448945348_1_alg».proof.Proof.Gen.KernelIdeal.Frame
import proofs.«128485_j13271448945348_1_alg».proof.Proof.LibBiasRows
import Idealize.ShloMosaic.Lib.Pipeline.Value
import Idealize.ShloMosaic.Lib.ValueIdx

set_option maxRecDepth 16384

noncomputable section

namespace Cert.KernelIdeal.Rectify

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The bodies load and store at the origin of their staging buffers. -/
theorem zero_off : (![0, 0] : Fin 2 → Nat) = fun _ => 0 := funext fun a => by fin_cases a <;> rfl

/-! ## Region 1: the bias row `main_v48` [1, 256] added to every row of `main_v45` [50000, 256], rectified, ten blocks of 5000 rows -/

/-- The body's stored value at an entry: the larger of (entry + the row's entry in that column) and zero. -/
theorem pay1 (x0 : Vec Ideal S5000x256 .f32) (x1 : Vec Ideal S1x256 .f32) (j : S5000x256.Idx) :
    k1_pay1 (F := Ideal) x0 x1 j = Cert.LibBiasRows.reluRow x0 x1 j := by
  unfold k1_pay1
  exact Cert.LibBiasRows.vec_reluRow (n := 5000) (d := 256) x0 x1 shapeCasts_S5000x256_S5000x256 shapeCasts_S1x256_S1x256 broadcasts_S1x256_S5000x256 j

/-- The windows' block indices over the grid: the matrix and the output move together along the rows, the bias row
    stays, nothing moves along the columns. -/
theorem idx1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row blocks is some point's. -/
theorem onto1 : ∀ q : Fin 10, ∃ t : Fin cfg1.N, win1_2.index t = ![q.val, 0] :=
  (by decide +kernel : ∀ q : Fin 10, ∃ t : Fin grid1.N, win1_2.index t = ![q.val, 0])

/-- What point `t` writes back is block `t` of the rectified sum of the two arrays as the region finds them. -/
theorem flushed1 (c : Dev nD) (t : Fin cfg1.N) :
    (dat1 V c).flushed 2 t = ((cfg1.win 2).blk t).view.read (Elt Ideal) (Cert.LibBiasRows.reluRow (V c main_v45) (V c main_v48)) := by
  show (cfg1.win 2).cut (grid1.coords t) ((dat1 V c).after 2 t) = _
  rw [after1_2]
  unfold out1_2
  rw [View.canon_unit_zero zero_off]
  simp only [View.ld_unit_zero (S := S5000x256) zero_off, View.ld_unit_zero (S := S1x256) zero_off]
  obtain ⟨e0, e1, e2, e3, e4, e5⟩ := idx1 t
  funext j
  show k1_pay1 (F := Ideal) (iblk1 V c 0 t) (iblk1 V c 1 t) j = Cert.LibBiasRows.reluRow (V c main_v45) (V c main_v48) (((cfg1.win 2).blk t).view.emb j)
  refine (pay1 (iblk1 V c 0 t) (iblk1 V c 1 t) j).trans ?_
  have hj0 : (j 0).val < 5000 := (j 0).isLt
  have hj1 : (j 1).val < 256 := (j 1).isLt
  refine Cert.LibBiasRows.reluRow_congr (n := 5000) (n' := 50000) (d := 256) (iblk1 V c 0 t) (V c main_v45) (iblk1 V c 1 t) (V c main_v48) j (((cfg1.win 2).blk t).view.emb j) ?_ ?_
  · show V c main_v45 (((cfg1.win 0).blk t).view.emb j) = V c main_v45 (((cfg1.win 2).blk t).view.emb j)
    refine congrArg (V c main_v45) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * (j 1).val = win1_2.index t (1 : Fin 2) * 256 + 1 * (j 1).val; omega
  · show V c main_v48 (((cfg1.win 1).blk t).view.emb (ix2 ⟨0, Nat.one_pos⟩ (j 1))) = V c main_v48 (ix2 ⟨0, Nat.one_pos⟩ ((((cfg1.win 2).blk t).view.emb j) 1))
    refine congrArg (V c main_v48) (funext fun a => Fin.ext ?_)
    match a with
    | ⟨0, _⟩ => show win1_1.index t (0 : Fin 2) * 1 + 1 * 0 = 0; omega
    | ⟨1, _⟩ => show win1_1.index t (1 : Fin 2) * 256 + 1 * (j 1).val = win1_2.index t (1 : Fin 2) * 256 + 1 * (j 1).val; omega

/-- An entry of the output array is in point `t`'s block iff each coordinate is in the block's range on its axis. -/
theorem mem_blk1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v49).slice (win1_2.rect t)).set ↔ _
  rw [View.set_slice_whole, Rect.mem_set_unit]
  exact Iff.rfl

/-- The ten blocks cover the array: row r lies in block r / 5000. -/
theorem cover1 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The output array after the region: the rectified sum of the matrix and the bias row as the region finds them. -/
theorem rectified1 (c : Dev nD) : (dat1 V c).arrAt 2 cfg1.N = Cert.LibBiasRows.reluRow (V c main_v45) (V c main_v48) :=
  (dat1 V c).arrAt_eq_of_cover 2 _ (fun t _ => flushed1 V c t) (cover1)

/-! ## Region 3: the bias row `main_v67` [1, 256] added to every row of `main_v64` [50000, 256], rectified, ten blocks of 5000 rows -/

/-- The body's stored value at an entry: the larger of (entry + the row's entry in that column) and zero. -/
theorem pay3 (x0 : Vec Ideal S5000x256 .f32) (x1 : Vec Ideal S1x256 .f32) (j : S5000x256.Idx) :
    k3_pay1 (F := Ideal) x0 x1 j = Cert.LibBiasRows.reluRow x0 x1 j := by
  unfold k3_pay1
  exact Cert.LibBiasRows.vec_reluRow (n := 5000) (d := 256) x0 x1 shapeCasts_S5000x256_S5000x256 shapeCasts_S1x256_S1x256 broadcasts_S1x256_S5000x256 j

/-- The windows' block indices over the grid: the matrix and the output move together along the rows, the bias row
    stays, nothing moves along the columns. -/
theorem idx3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten row blocks is some point's. -/
theorem onto3 : ∀ q : Fin 10, ∃ t : Fin cfg3.N, win3_2.index t = ![q.val, 0] :=
  (by decide +kernel : ∀ q : Fin 10, ∃ t : Fin grid3.N, win3_2.index t = ![q.val, 0])

/-- What point `t` writes back is block `t` of the rectified sum of the two arrays as the region finds them. -/
theorem flushed3 (c : Dev nD) (t : Fin cfg3.N) :
    (dat3 V c).flushed 2 t = ((cfg3.win 2).blk t).view.read (Elt Ideal) (Cert.LibBiasRows.reluRow (V c main_v64) (V c main_v67)) := by
  show (cfg3.win 2).cut (grid3.coords t) ((dat3 V c).after 2 t) = _
  rw [after3_2]
  unfold out3_2
  rw [View.canon_unit_zero zero_off]
  simp only [View.ld_unit_zero (S := S5000x256) zero_off, View.ld_unit_zero (S := S1x256) zero_off]
  obtain ⟨e0, e1, e2, e3, e4, e5⟩ := idx3 t
  funext j
  show k3_pay1 (F := Ideal) (iblk3 V c 0 t) (iblk3 V c 1 t) j = Cert.LibBiasRows.reluRow (V c main_v64) (V c main_v67) (((cfg3.win 2).blk t).view.emb j)
  refine (pay3 (iblk3 V c 0 t) (iblk3 V c 1 t) j).trans ?_
  have hj0 : (j 0).val < 5000 := (j 0).isLt
  have hj1 : (j 1).val < 256 := (j 1).isLt
  refine Cert.LibBiasRows.reluRow_congr (n := 5000) (n' := 50000) (d := 256) (iblk3 V c 0 t) (V c main_v64) (iblk3 V c 1 t) (V c main_v67) j (((cfg3.win 2).blk t).view.emb j) ?_ ?_
  · show V c main_v64 (((cfg3.win 0).blk t).view.emb j) = V c main_v64 (((cfg3.win 2).blk t).view.emb j)
    refine congrArg (V c main_v64) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 256 + 1 * (j 1).val = win3_2.index t (1 : Fin 2) * 256 + 1 * (j 1).val; omega
  · show V c main_v67 (((cfg3.win 1).blk t).view.emb (ix2 ⟨0, Nat.one_pos⟩ (j 1))) = V c main_v67 (ix2 ⟨0, Nat.one_pos⟩ ((((cfg3.win 2).blk t).view.emb j) 1))
    refine congrArg (V c main_v67) (funext fun a => Fin.ext ?_)
    match a with
    | ⟨0, _⟩ => show win3_1.index t (0 : Fin 2) * 1 + 1 * 0 = 0; omega
    | ⟨1, _⟩ => show win3_1.index t (1 : Fin 2) * 256 + 1 * (j 1).val = win3_2.index t (1 : Fin 2) * 256 + 1 * (j 1).val; omega

/-- An entry of the output array is in point `t`'s block iff each coordinate is in the block's range on its axis. -/
theorem mem_blk3 (t : Fin cfg3.N) (i : S50000x256.Idx) :
    i ∈ ((cfg3.win 2).blk t).view.set ↔ ∀ a : Fin 2, win3_2.index t a * S5000x256.size a ≤ (i a).val ∧ (i a).val < win3_2.index t a * S5000x256.size a + S5000x256.size a := by
  show i ∈ ((View.whole main_v68).slice (win3_2.rect t)).set ↔ _
  rw [View.set_slice_whole, Rect.mem_set_unit]
  exact Iff.rfl

/-- The ten blocks cover the array: row r lies in block r / 5000. -/
theorem cover3 (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  obtain ⟨t, ht⟩ := onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 256 ≤ (i 1).val ∧ (i 1).val < win3_2.index t (1 : Fin 2) * 256 + 256; omega

/-- The output array after the region: the rectified sum of the matrix and the bias row as the region finds them. -/
theorem rectified3 (c : Dev nD) : (dat3 V c).arrAt 2 cfg3.N = Cert.LibBiasRows.reluRow (V c main_v64) (V c main_v67) :=
  (dat3 V c).arrAt_eq_of_cover 2 _ (fun t _ => flushed3 V c t) (cover3)

/-! ## Region 5: the bias row `main_v86` [1, 256] added to every row of `main_v83` [50000, 256], rectified, ten blocks of 5000 rows -/

/-- The body's stored value at an entry: the larger of (entry + the row's entry in that column) and zero. -/
theorem pay5 (x0 : Vec Ideal S5000x256 .f32) (x1 : Vec Ideal S1x256 .f32) (j : S5000x256.Idx) :
    k5_pay1 (F := Ideal) x0 x1 j = Cert.LibBiasRows.reluRow x0 x1 j := by
  unfold k5_pay1
  exact Cert.LibBiasRows.vec_reluRow (n := 5000) (d := 256) x0 x1 shapeCasts_S5000x256_S5000x256 shapeCasts_S1x256_S1x256 broadcasts_S1x256_S5000x256 j

/-- The windows' block indices over the grid: the matrix and the output move together along the rows, the bias row
    stays, nothing moves along the columns. -/
theorem idx5 : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every one of the ten row blocks is some point's. -/
theorem onto5 : ∀ q : Fin 10, ∃ t : Fin cfg5.N, win5_2.index t = ![q.val, 0] :=
  (by decide +kernel : ∀ q : Fin 10, ∃ t : Fin grid5.N, win5_2.index t = ![q.val, 0])

/-- What point `t` writes back is block `t` of the rectified sum of the two arrays as the region finds them. -/
theorem flushed5 (c : Dev nD) (t : Fin cfg5.N) :
    (dat5 V c).flushed 2 t = ((cfg5.win 2).blk t).view.read (Elt Ideal) (Cert.LibBiasRows.reluRow (V c main_v83) (V c main_v86)) := by
  show (cfg5.win 2).cut (grid5.coords t) ((dat5 V c).after 2 t) = _
  rw [after5_2]
  unfold out5_2
  rw [View.canon_unit_zero zero_off]
  simp only [View.ld_unit_zero (S := S5000x256) zero_off, View.ld_unit_zero (S := S1x256) zero_off]
  obtain ⟨e0, e1, e2, e3, e4, e5⟩ := idx5 t
  funext j
  show k5_pay1 (F := Ideal) (iblk5 V c 0 t) (iblk5 V c 1 t) j = Cert.LibBiasRows.reluRow (V c main_v83) (V c main_v86) (((cfg5.win 2).blk t).view.emb j)
  refine (pay5 (iblk5 V c 0 t) (iblk5 V c 1 t) j).trans ?_
  have hj0 : (j 0).val < 5000 := (j 0).isLt
  have hj1 : (j 1).val < 256 := (j 1).isLt
  refine Cert.LibBiasRows.reluRow_congr (n := 5000) (n' := 50000) (d := 256) (iblk5 V c 0 t) (V c main_v83) (iblk5 V c 1 t) (V c main_v86) j (((cfg5.win 2).blk t).view.emb j) ?_ ?_
  · show V c main_v83 (((cfg5.win 0).blk t).view.emb j) = V c main_v83 (((cfg5.win 2).blk t).view.emb j)
    refine congrArg (V c main_v83) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 256 + 1 * (j 1).val = win5_2.index t (1 : Fin 2) * 256 + 1 * (j 1).val; omega
  · show V c main_v86 (((cfg5.win 1).blk t).view.emb (ix2 ⟨0, Nat.one_pos⟩ (j 1))) = V c main_v86 (ix2 ⟨0, Nat.one_pos⟩ ((((cfg5.win 2).blk t).view.emb j) 1))
    refine congrArg (V c main_v86) (funext fun a => Fin.ext ?_)
    match a with
    | ⟨0, _⟩ => show win5_1.index t (0 : Fin 2) * 1 + 1 * 0 = 0; omega
    | ⟨1, _⟩ => show win5_1.index t (1 : Fin 2) * 256 + 1 * (j 1).val = win5_2.index t (1 : Fin 2) * 256 + 1 * (j 1).val; omega

/-- An entry of the output array is in point `t`'s block iff each coordinate is in the block's range on its axis. -/
theorem mem_blk5 (t : Fin cfg5.N) (i : S50000x256.Idx) :
    i ∈ ((cfg5.win 2).blk t).view.set ↔ ∀ a : Fin 2, win5_2.index t a * S5000x256.size a ≤ (i a).val ∧ (i a).val < win5_2.index t a * S5000x256.size a + S5000x256.size a := by
  show i ∈ ((View.whole main_v87).slice (win5_2.rect t)).set ↔ _
  rw [View.set_slice_whole, Rect.mem_set_unit]
  exact Iff.rfl

/-- The ten blocks cover the array: row r lies in block r / 5000. -/
theorem cover5 (i : S50000x256.Idx) : ∃ t : Fin cfg5.N, (cfg5.win 2).flush t = true ∧ i ∈ ((cfg5.win 2).blk t).view.set := by
  have hi0 : (i 0).val < 50000 := (i 0).isLt
  have hi1 : (i 1).val < 256 := (i 1).isLt
  obtain ⟨t, ht⟩ := onto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 256 ≤ (i 1).val ∧ (i 1).val < win5_2.index t (1 : Fin 2) * 256 + 256; omega

/-- The output array after the region: the rectified sum of the matrix and the bias row as the region finds them. -/
theorem rectified5 (c : Dev nD) : (dat5 V c).arrAt 2 cfg5.N = Cert.LibBiasRows.reluRow (V c main_v83) (V c main_v86) :=
  (dat5 V c).arrAt_eq_of_cover 2 _ (fun t _ => flushed5 V c t) (cover5)

end Cert.KernelIdeal.Rectify

end
-- ==== Proof.Net.lean ====
/-
  A three-layer graph convolution as one function of its four arrays.

  Node features x : [50000, 256], an edge list e : [2, 800000] of 32-bit node numbers (row 0 the sources, row 1 the
  targets), weights W : [3, 256, 256] and biases b : [3, 256].  Every node gets a self loop, so the messages run over
  850000 (source, target) pairs.  With deg(i) the number of messages into i and d(i) = deg(i)^(-1/2) where deg(i) > 0
  (0 elsewhere), message k carries the factor d(src k) · d(dst k).  A layer multiplies the features by its weight
  matrix, sends each source row scaled by the message's factor to the target and sums there, adds the bias row to every
  node and takes the larger of that and zero.  The network is three such layers.

  The layer is written once over three pieces that are kept apart on purpose: the dense product (a finite sum per entry),
  the sparse aggregation (the host's gather and scatter-add, left as they are: both sides of the comparison use the very same
  operations, so nothing about them is ever opened), and the bias row with the rectifier (one entry of each operand per
  entry).  No finiteness is used anywhere.
-/
import proofs.«128485_j13271448945348_1_alg».proof.ReferenceIdeal
import proofs.«128485_j13271448945348_1_alg».proof.Proof.LibDense
import proofs.«128485_j13271448945348_1_alg».proof.Proof.LibBiasRows

noncomputable section

namespace Cert.Net

open Idealize.ShloMosaic Cert.ReferenceIdeal

variable {F : FTy → Type} [FloatOps F] [Cert.ReferenceIdeal.Facts]

open Cert.ReferenceIdeal.Facts₀ Cert.ReferenceIdeal.Facts

/-! ## The messages: who sends to whom, and with which factor -/

/-- Row `r` of the edge list followed by the self loops 0, 1, …, 49999: 850000 node numbers. -/
def endpoints (off : Fin 2 → ℕ) (h : S2x800000.Slices off S1x800000) (e : (⟨S2x800000, .i32⟩ : BufTy).Contents (Elt F)) :
    (⟨S850000, .i32⟩ : BufTy).Contents (Elt F) :=
  concatenate S850000 0 [⟨S800000, (shapeCast _ (extractStridedSlice S1x800000 off e h) shapeCasts_S1x800000_S800000)⟩, ⟨S50000, (iotaInDim S50000 32 0)⟩] concatenates_S800000_S50000_S850000_d0

/-- The message sources. -/
def sources (e : (⟨S2x800000, .i32⟩ : BufTy).Contents (Elt F)) : (⟨S850000, .i32⟩ : BufTy).Contents (Elt F) :=
  endpoints ![0, 0] slices_S2x800000_S1x800000_0_0 e

/-- The message targets. -/
def targets (e : (⟨S2x800000, .i32⟩ : BufTy).Contents (Elt F)) : (⟨S850000, .i32⟩ : BufTy).Contents (Elt F) :=
  endpoints ![1, 0] slices_S2x800000_S1x800000_1_0 e

/-- A negative node number counts from the end: 50000 is added to it. -/
def wrapped (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- Node numbers as a column [850000, 1], the layout the gather and the scatter take them in. -/
def column (v : (⟨S850000, .i32⟩ : BufTy).Contents (Elt F)) : (⟨S850000x1, .i32⟩ : BufTy).Contents (Elt F) :=
  broadcastInDim S850000x1 ![0] bcast_S850000_S850000x1_0 v

/-- deg(i): the number of messages into node i, a sum of ones. -/
def degree (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (column dst) (broadcastInDim S850000 ![] bcast_S_S850000 (constant S_ .f32 0x3F800000#32))

/-- d(i) = deg(i)^(-1/2) where deg(i) > 0, and 0 elsewhere. -/
def invSqrtDegree (dst : (⟨S850000, .i32⟩ : BufTy).Contents (Elt F)) : (⟨S50000, .f32⟩ : BufTy).Contents (Elt F) :=
  select (cmpf (F := F) .ogt (degree dst) (broadcastInDim S50000 ![] bcast_S_S50000 (constant S_ .f32 0x00000000#32))) (Host.rsqrt (degree dst)) (broadcastInDim S50000 ![] bcast_S_S50000 (id (constant S_ .f32 0x00000000#32)))

/-- From a per-node array `d`: the product d(src k) · d(dst k) for every message k, as a column [850000, 1]. -/
def factorsOf (d : (⟨S50000, .f32⟩ : BufTy).Contents (Elt F)) (src dst : (⟨S850000, .i32⟩ : BufTy).Contents (Elt F)) :
    (⟨S850000x1, .f32⟩ : BufTy).Contents (Elt F) :=
  broadcastInDim S850000x1 ![0] bcast_S850000_S850000x1_0 (mulf (Host.gather gather_S50000_S850000x1_S850000_n_0_n_n_0_1_1 d (column (wrapped src))) (Host.gather gather_S50000_S850000x1_S850000_n_0_n_n_0_1_1 d (column (wrapped dst))))

/-- The factor of message k, d(src k) · d(dst k) with d the reciprocal root of the degree, as a column [850000, 1]. -/
def factors (src dst : (⟨S850000, .i32⟩ : BufTy).Contents (Elt F)) : (⟨S850000x1, .f32⟩ : BufTy).Contents (Elt F) :=
  factorsOf (invSqrtDegree dst) src dst

/-- The sparse aggregation: row (src k) of `t` scaled by message k's factor, summed into row (dst k). -/
def aggregate (src dst : (⟨S850000, .i32⟩ : BufTy).Contents (Elt F)) (nrm : (⟨S850000x1, .f32⟩ : BufTy).Contents (Elt F))
    (t : (⟨S50000x256, .f32⟩ : BufTy).Contents (Elt F)) : (⟨S50000x256, .f32⟩ : BufTy).Contents (Elt F) :=
  Host.scatterAdd scatter_S50000x256_S850000x1_S850000x256_1_0_0_1 (broadcastInDim S50000x256 ![] bcast_S_S50000x256 (constant S_ .f32 0x00000000#32)) (column dst) (mulf (Host.gather gather_S50000x256_S850000x1_S850000x256_1_0_n_n_0_1_1256 t (column (wrapped src))) (broadcastInDim S850000x256 ![0, 1] bcast_S850000x1_S850000x256_0_1 nrm))

/-! ## A layer's parameters -/

/-- Layer `l`'s weight matrix [256, 256]: slab `l` of W. -/
def weight (off : Fin 3 → ℕ) (h : S3x256x256.Slices off S1x256x256) (W : (⟨S3x256x256, .f32⟩ : BufTy).Contents (Elt F)) :
    (⟨S256x256, .f32⟩ : BufTy).Contents (Elt F) :=
  shapeCast _ (extractStridedSlice S1x256x256 off W h) shapeCasts_S1x256x256_S256x256

/-- Layer `l`'s bias vector [256]: row `l` of b. -/
def bias (off : Fin 2 → ℕ) (h : S3x256.Slices off S1x256) (b : (⟨S3x256, .f32⟩ : BufTy).Contents (Elt F)) :
    (⟨S256, .f32⟩ : BufTy).Contents (Elt F) :=
  shapeCast _ (extractStridedSlice S1x256 off b h) shapeCasts_S1x256_S256

/-- A bias vector laid out as a row [1, 256]. -/
def asRow (hc : S256.ShapeCasts S1x256) (v : (⟨S256, .f32⟩ : BufTy).Contents (Elt F)) : (⟨S1x256, .f32⟩ : BufTy).Contents (Elt F) :=
  shapeCast S1x256 v hc

/-! ## The layer and the network, on the extended reals -/

section

/-- One layer: rectified (bias row + aggregation of the dense product). -/
def layer (src dst : (⟨S850000, .i32⟩ : BufTy).Contents (Elt Ideal)) (nrm : (⟨S850000x1, .f32⟩ : BufTy).Contents (Elt Ideal))
    (h : S50000x256.Idx → EReal) (w : S256x256.Idx → EReal) (brow : S1x256.Idx → EReal) : S50000x256.Idx → EReal :=
  Cert.LibBiasRows.reluRow (aggregate (F := Ideal) src dst nrm (Cert.LibDense.prod h w)) brow

/-- The three layers, each with its own slab of W and row of b, over the one set of messages. -/
def network (hc : S256.ShapeCasts S1x256) (x : S50000x256.Idx → EReal) (e : (⟨S2x800000, .i32⟩ : BufTy).Contents (Elt Ideal))
    (W : S3x256x256.Idx → EReal) (b : S3x256.Idx → EReal) : S50000x256.Idx → EReal :=
  layer (sources e) (targets e) (factors (F := Ideal) (sources e) (targets e))
    (layer (sources e) (targets e) (factors (F := Ideal) (sources e) (targets e))
      (layer (sources e) (targets e) (factors (F := Ideal) (sources e) (targets e)) x
        (weight (F := Ideal) ![0, 0, 0] slices_S3x256x256_S1x256x256_0_0_0 W) (asRow (F := Ideal) hc (bias (F := Ideal) ![0, 0] slices_S3x256_S1x256_0_0 b)))
      (weight (F := Ideal) ![1, 0, 0] slices_S3x256x256_S1x256x256_1_0_0 W) (asRow (F := Ideal) hc (bias (F := Ideal) ![1, 0] slices_S3x256_S1x256_1_0 b)))
    (weight (F := Ideal) ![2, 0, 0] slices_S3x256x256_S1x256x256_2_0_0 W) (asRow (F := Ideal) hc (bias (F := Ideal) ![2, 0] slices_S3x256_S1x256_2_0 b))

end

end Cert.Net

end
-- ==== Proof.KernelFold.lean ====
/-
  The idealized kernel's fold through its fourteen segments, read at the result buffer.

  Before the first region the host operations compute, from the edge list, the message sources, the message targets and
  the messages' factors, and cut the first weight matrix out of W.  These three message arrays, W and b are written by
  nothing afterwards, so every later boundary finds them as they were (`kept…`).  A layer is then four steps: a dense
  region (its output array is the product of the two arrays it found), a host stretch (the aggregation of that product over
  the messages, and the layer's bias as a row), a rectifying region (its output array is the rectified sum of the two arrays
  it found), and, before the next layer, a host stretch cutting the next weight matrix out of W while the features stay.
  Reading the last region's output back through the three layers gives the network of the four argument arrays.
-/
import proofs.«128485_j13271448945348_1_alg».proof.Proof.Gen.KernelIdeal.Frame
import proofs.«128485_j13271448945348_1_alg».proof.Proof.Gen.ReferenceIdeal
import proofs.«128485_j13271448945348_1_alg».proof.Proof.DenseBlocks
import proofs.«128485_j13271448945348_1_alg».proof.Proof.RectifyBlocks
import proofs.«128485_j13271448945348_1_alg».proof.Proof.Net
import Idealize.ShloMosaic.Lib.StableHlo.Run

set_option maxRecDepth 16384

noncomputable section

namespace Cert.KernelIdeal.Fold

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg) (c : Dev nD)

/-! ## Before the first region: the messages, the first weight matrix, and the untouched arguments -/

set_option maxHeartbeats 8000000 in
theorem x3 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  dsimp only [hostOps0_2, hostOps0_1, hostOps0]
  after_results <;> rfl

set_option maxHeartbeats 8000000 in
theorem weight3 : W3 m ρ c (Proc.devRef .tc main_v32) = (Cert.Net.weight (F := Ideal) ![0, 0, 0] Cert.ReferenceIdeal.Facts₀.slices_S3x256x256_S1x256x256_0_0_0 (m ((c : Thread nD τ).loc main_arg2))) := by
  show StableHlo.after hostOps0_2 (StableHlo.after hostOps0_1 (StableHlo.after hostOps0 (W0 m ρ c))) (Proc.devRef .tc main_v32) = _
  dsimp only [hostOps0_2, hostOps0_1, hostOps0]
  after_results <;> rfl

/-! ### The messages, one host stretch at a time -/

set_option maxHeartbeats 4000000 in
/-- After the first stretch: the message sources … -/
theorem sources1 : W1 m ρ c (Proc.devRef .tc main_v3) = (Cert.Net.sources (F := Ideal) (m ((c : Thread nD τ).loc main_arg1))) := by
  show StableHlo.after hostOps0 (W0 m ρ c) (Proc.devRef .tc main_v3) = _
  dsimp only [hostOps0]
  after_results <;> rfl

set_option maxHeartbeats 4000000 in
/-- … the message targets … -/
theorem targets1 : W1 m ρ c (Proc.devRef .tc main_v6) = (Cert.Net.targets (F := Ideal) (m ((c : Thread nD τ).loc main_arg1))) := by
  show StableHlo.after hostOps0 (W0 m ρ c) (Proc.devRef .tc main_v6) = _
  dsimp only [hostOps0]
  after_results <;> rfl

set_option maxHeartbeats 4000000 in
/-- … where the degree is positive … -/
theorem positive1 : W1 m ρ c (Proc.devRef .tc main_v12) = cmpf (F := Ideal) .ogt (Cert.Net.degree (F := Ideal) (Cert.Net.targets (F := Ideal) (m ((c : Thread nD τ).loc main_arg1)))) (broadcastInDim S50000 ![] Cert.ReferenceIdeal.Facts₀.bcast_S_S50000 (constant (F := Ideal) S_ .f32 0x00000000#32)) := by
  show StableHlo.after hostOps0 (W0 m ρ c) (Proc.devRef .tc main_v12) = _
  dsimp only [hostOps0]
  after_results <;> rfl

set_option maxHeartbeats 4000000 in
/-- … the degree's reciprocal square root … -/
theorem rsqrt1 : W1 m ρ c (Proc.devRef .tc main_v13) = Host.rsqrt (F := Ideal) (φ := .f32) (Cert.Net.degree (F := Ideal) (Cert.Net.targets (F := Ideal) (m ((c : Thread nD τ).loc main_arg1)))) := by
  show StableHlo.after hostOps0 (W0 m ρ c) (Proc.devRef .tc main_v13) = _
  dsimp only [hostOps0]
  after_results <;> rfl

set_option maxHeartbeats 4000000 in
/-- … and the zero the nodes without messages get. -/
theorem zero1 : W1 m ρ c (Proc.devRef .tc main_cst_2) = constant (F := Ideal) S_ .f32 0x00000000#32 := by
  show StableHlo.after hostOps0 (W0 m ρ c) (Proc.devRef .tc main_cst_2) = _
  dsimp only [hostOps0]
  after_results <;> rfl

set_option maxHeartbeats 4000000 in
/-- After the second stretch (the outlined choice): d(i), the reciprocal root where the degree is positive, zero elsewhere. -/
theorem invSqrt2 : W2 m ρ c (Proc.devRef .tc main_v14) = Cert.Net.invSqrtDegree (F := Ideal) (Cert.Net.targets (F := Ideal) (m ((c : Thread nD τ).loc main_arg1))) := by
  have h : W2 m ρ c (Proc.devRef .tc main_v14) = select (W1 m ρ c (Proc.devRef .tc main_v12)) (W1 m ρ c (Proc.devRef .tc main_v13)) (broadcastInDim S50000 ![] Cert.ReferenceIdeal.Facts₀.bcast_S_S50000 (id (W1 m ρ c (Proc.devRef .tc main_cst_2)))) := by
    show StableHlo.after hostOps0_1 (W1 m ρ c) (Proc.devRef .tc main_v14) = _
    generalize W1 m ρ c = V1
    dsimp only [hostOps0_1]
    after_results <;> rfl
  rw [h, positive1 m ρ c, rsqrt1 m ρ c, zero1 m ρ c]
  rfl

set_option maxHeartbeats 4000000 in
/-- The second stretch writes neither the sources nor the targets. -/
theorem sources2 : W2 m ρ c (Proc.devRef .tc main_v3) = (Cert.Net.sources (F := Ideal) (m ((c : Thread nD τ).loc main_arg1))) := by
  refine Eq.trans ?_ (sources1 m ρ c)
  show StableHlo.after hostOps0_1 (W1 m ρ c) (Proc.devRef .tc main_v3) = _
  generalize W1 m ρ c = V1
  dsimp only [hostOps0_1]
  after_results <;> rfl
set_option maxHeartbeats 4000000 in
theorem targets2 : W2 m ρ c (Proc.devRef .tc main_v6) = (Cert.Net.targets (F := Ideal) (m ((c : Thread nD τ).loc main_arg1))) := by
  refine Eq.trans ?_ (targets1 m ρ c)
  show StableHlo.after hostOps0_1 (W1 m ρ c) (Proc.devRef .tc main_v6) = _
  generalize W1 m ρ c = V1
  dsimp only [hostOps0_1]
  after_results <;> rfl

set_option maxHeartbeats 4000000 in
/-- Nor does the third. -/
theorem kept3_v3 : W3 m ρ c (Proc.devRef .tc main_v3) = (Cert.Net.sources (F := Ideal) (m ((c : Thread nD τ).loc main_arg1))) := by
  refine Eq.trans ?_ (sources2 m ρ c)
  show StableHlo.after hostOps0_2 (W2 m ρ c) (Proc.devRef .tc main_v3) = _
  generalize W2 m ρ c = V2
  dsimp only [hostOps0_2]
  after_results <;> rfl
set_option maxHeartbeats 4000000 in
theorem kept3_v6 : W3 m ρ c (Proc.devRef .tc main_v6) = (Cert.Net.targets (F := Ideal) (m ((c : Thread nD τ).loc main_arg1))) := by
  refine Eq.trans ?_ (targets2 m ρ c)
  show StableHlo.after hostOps0_2 (W2 m ρ c) (Proc.devRef .tc main_v6) = _
  generalize W2 m ρ c = V2
  dsimp only [hostOps0_2]
  after_results <;> rfl

set_option maxHeartbeats 4000000 in
/-- After the third stretch: the messages' factors d(src k) · d(dst k), as a column. -/
theorem kept3_v30 : W3 m ρ c (Proc.devRef .tc main_v30) = (Cert.Net.factors (F := Ideal) (Cert.Net.sources (F := Ideal) (m ((c : Thread nD τ).loc main_arg1))) (Cert.Net.targets (F := Ideal) (m ((c : Thread nD τ).loc main_arg1)))) := by
  have h : W3 m ρ c (Proc.devRef .tc main_v30) = Cert.Net.factorsOf (F := Ideal) (W2 m ρ c (Proc.devRef .tc main_v14)) (W2 m ρ c (Proc.devRef .tc main_v3)) (W2 m ρ c (Proc.devRef .tc main_v6)) := by
    show StableHlo.after hostOps0_2 (W2 m ρ c) (Proc.devRef .tc main_v30) = _
    generalize W2 m ρ c = V2
    dsimp only [hostOps0_2]
    after_results_simp <;> rfl
  rw [h, invSqrt2 m ρ c, sources2 m ρ c, targets2 m ρ c]
  rfl

set_option maxHeartbeats 8000000 in
set_option maxRecDepth 65536 in
theorem kept3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  dsimp only [hostOps0_2, hostOps0_1, hostOps0]
  after_results <;> rfl

set_option maxHeartbeats 8000000 in
set_option maxRecDepth 65536 in
theorem kept3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  dsimp only [hostOps0_2, hostOps0_1, hostOps0]
  after_results <;> rfl

/-! ## The five arrays nothing writes again, at every later boundary -/
theorem kept4_v3 : W4 m ρ c (Proc.devRef .tc main_v3) = (Cert.Net.sources (F := Ideal) (m ((c : Thread nD τ).loc main_arg1))) := (W4_of_ne m ρ c main_v3 (by decide)).trans (kept3_v3 m ρ c)
theorem kept4_v6 : W4 m ρ c (Proc.devRef .tc main_v6) = (Cert.Net.targets (F := Ideal) (m ((c : Thread nD τ).loc main_arg1))) := (W4_of_ne m ρ c main_v6 (by decide)).trans (kept3_v6 m ρ c)
theorem kept4_v30 : W4 m ρ c (Proc.devRef .tc main_v30) = (Cert.Net.factors (F := Ideal) (Cert.Net.sources (F := Ideal) (m ((c : Thread nD τ).loc main_arg1))) (Cert.Net.targets (F := Ideal) (m ((c : Thread nD τ).loc main_arg1)))) := (W4_of_ne m ρ c main_v30 (by decide)).trans (kept3_v30 m ρ c)
theorem kept4_arg2 : W4 m ρ c (Proc.devRef .tc main_arg2) = (m ((c : Thread nD τ).loc main_arg2)) := (W4_of_ne m ρ c main_arg2 (by decide)).trans (kept3_arg2 m ρ c)
theorem kept4_arg3 : W4 m ρ c (Proc.devRef .tc main_arg3) = (m ((c : Thread nD τ).loc main_arg3)) := (W4_of_ne m ρ c main_arg3 (by decide)).trans (kept3_arg3 m ρ c)
theorem kept5_v3 : W5 m ρ c (Proc.devRef .tc main_v3) = (Cert.Net.sources (F := Ideal) (m ((c : Thread nD τ).loc main_arg1))) := by
  refine Eq.trans ?_ (kept4_v3 m ρ c)
  show StableHlo.after hostOps1 (W4 m ρ c) (Proc.devRef .tc main_v3) = _
  dsimp only [hostOps1]
  after_results <;> rfl
theorem kept5_v6 : W5 m ρ c (Proc.devRef .tc main_v6) = (Cert.Net.targets (F := Ideal) (m ((c : Thread nD τ).loc main_arg1))) := by
  refine Eq.trans ?_ (kept4_v6 m ρ c)
  show StableHlo.after hostOps1 (W4 m ρ c) (Proc.devRef .tc main_v6) = _
  dsimp only [hostOps1]
  after_results <;> rfl
theorem kept5_v30 : W5 m ρ c (Proc.devRef .tc main_v30) = (Cert.Net.factors (F := Ideal) (Cert.Net.sources (F := Ideal) (m ((c : Thread nD τ).loc main_arg1))) (Cert.Net.targets (F := Ideal) (m ((c : Thread nD τ).loc main_arg1)))) := by
  refine Eq.trans ?_ (kept4_v30 m ρ c)
  show StableHlo.after hostOps1 (W4 m ρ c) (Proc.devRef .tc main_v30) = _
  dsimp only [hostOps1]
  after_results <;> rfl
theorem kept5_arg2 : W5 m ρ c (Proc.devRef .tc main_arg2) = (m ((c : Thread nD τ).loc main_arg2)) := by
  refine Eq.trans ?_ (kept4_arg2 m ρ c)
  show StableHlo.after hostOps1 (W4 m ρ c) (Proc.devRef .tc main_arg2) = _
  dsimp only [hostOps1]
  after_results <;> rfl
theorem kept5_arg3 : W5 m ρ c (Proc.devRef .tc main_arg3) = (m ((c : Thread nD τ).loc main_arg3)) := by
  refine Eq.trans ?_ (kept4_arg3 m ρ c)
  show StableHlo.after hostOps1 (W4 m ρ c) (Proc.devRef .tc main_arg3) = _
  dsimp only [hostOps1]
  after_results <;> rfl
theorem kept6_v3 : W6 m ρ c (Proc.devRef .tc main_v3) = (Cert.Net.sources (F := Ideal) (m ((c : Thread nD τ).loc main_arg1))) := (W6_of_ne m ρ c main_v3 (by decide)).trans (kept5_v3 m ρ c)
theorem kept6_v6 : W6 m ρ c (Proc.devRef .tc main_v6) = (Cert.Net.targets (F := Ideal) (m ((c : Thread nD τ).loc main_arg1))) := (W6_of_ne m ρ c main_v6 (by decide)).trans (kept5_v6 m ρ c)
theorem kept6_v30 : W6 m ρ c (Proc.devRef .tc main_v30) = (Cert.Net.factors (F := Ideal) (Cert.Net.sources (F := Ideal) (m ((c : Thread nD τ).loc main_arg1))) (Cert.Net.targets (F := Ideal) (m ((c : Thread nD τ).loc main_arg1)))) := (W6_of_ne m ρ c main_v30 (by decide)).trans (kept5_v30 m ρ c)
theorem kept6_arg2 : W6 m ρ c (Proc.devRef .tc main_arg2) = (m ((c : Thread nD τ).loc main_arg2)) := (W6_of_ne m ρ c main_arg2 (by decide)).trans (kept5_arg2 m ρ c)
theorem kept6_arg3 : W6 m ρ c (Proc.devRef .tc main_arg3) = (m ((c : Thread nD τ).loc main_arg3)) := (W6_of_ne m ρ c main_arg3 (by decide)).trans (kept5_arg3 m ρ c)
theorem kept7_v3 : W7 m ρ c (Proc.devRef .tc main_v3) = (Cert.Net.sources (F := Ideal) (m ((c : Thread nD τ).loc main_arg1))) := by
  refine Eq.trans ?_ (kept6_v3 m ρ c)
  show StableHlo.after hostOps2 (W6 m ρ c) (Proc.devRef .tc main_v3) = _
  dsimp only [hostOps2]
  after_results <;> rfl
theorem kept7_v6 : W7 m ρ c (Proc.devRef .tc main_v6) = (Cert.Net.targets (F := Ideal) (m ((c : Thread nD τ).loc main_arg1))) := by
  refine Eq.trans ?_ (kept6_v6 m ρ c)
  show StableHlo.after hostOps2 (W6 m ρ c) (Proc.devRef .tc main_v6) = _
  dsimp only [hostOps2]
  after_results <;> rfl
theorem kept7_v30 : W7 m ρ c (Proc.devRef .tc main_v30) = (Cert.Net.factors (F := Ideal) (Cert.Net.sources (F := Ideal) (m ((c : Thread nD τ).loc main_arg1))) (Cert.Net.targets (F := Ideal) (m ((c : Thread nD τ).loc main_arg1)))) := by
  refine Eq.trans ?_ (kept6_v30 m ρ c)
  show StableHlo.after hostOps2 (W6 m ρ c) (Proc.devRef .tc main_v30) = _
  dsimp only [hostOps2]
  after_results <;> rfl
theorem kept7_arg2 : W7 m ρ c (Proc.devRef .tc main_arg2) = (m ((c : Thread nD τ).loc main_arg2)) := by
  refine Eq.trans ?_ (kept6_arg2 m ρ c)
  show StableHlo.after hostOps2 (W6 m ρ c) (Proc.devRef .tc main_arg2) = _
  dsimp only [hostOps2]
  after_results <;> rfl
theorem kept7_arg3 : W7 m ρ c (Proc.devRef .tc main_arg3) = (m ((c : Thread nD τ).loc main_arg3)) := by
  refine Eq.trans ?_ (kept6_arg3 m ρ c)
  show StableHlo.after hostOps2 (W6 m ρ c) (Proc.devRef .tc main_arg3) = _
  dsimp only [hostOps2]
  after_results <;> rfl
theorem kept8_v3 : W8 m ρ c (Proc.devRef .tc main_v3) = (Cert.Net.sources (F := Ideal) (m ((c : Thread nD τ).loc main_arg1))) := (W8_of_ne m ρ c main_v3 (by decide)).trans (kept7_v3 m ρ c)
theorem kept8_v6 : W8 m ρ c (Proc.devRef .tc main_v6) = (Cert.Net.targets (F := Ideal) (m ((c : Thread nD τ).loc main_arg1))) := (W8_of_ne m ρ c main_v6 (by decide)).trans (kept7_v6 m ρ c)
theorem kept8_v30 : W8 m ρ c (Proc.devRef .tc main_v30) = (Cert.Net.factors (F := Ideal) (Cert.Net.sources (F := Ideal) (m ((c : Thread nD τ).loc main_arg1))) (Cert.Net.targets (F := Ideal) (m ((c : Thread nD τ).loc main_arg1)))) := (W8_of_ne m ρ c main_v30 (by decide)).trans (kept7_v30 m ρ c)
theorem kept8_arg2 : W8 m ρ c (Proc.devRef .tc main_arg2) = (m ((c : Thread nD τ).loc main_arg2)) := (W8_of_ne m ρ c main_arg2 (by decide)).trans (kept7_arg2 m ρ c)
theorem kept8_arg3 : W8 m ρ c (Proc.devRef .tc main_arg3) = (m ((c : Thread nD τ).loc main_arg3)) := (W8_of_ne m ρ c main_arg3 (by decide)).trans (kept7_arg3 m ρ c)
theorem kept9_v3 : W9 m ρ c (Proc.devRef .tc main_v3) = (Cert.Net.sources (F := Ideal) (m ((c : Thread nD τ).loc main_arg1))) := by
  refine Eq.trans ?_ (kept8_v3 m ρ c)
  show StableHlo.after hostOps3 (W8 m ρ c) (Proc.devRef .tc main_v3) = _
  dsimp only [hostOps3]
  after_results <;> rfl
theorem kept9_v6 : W9 m ρ c (Proc.devRef .tc main_v6) = (Cert.Net.targets (F := Ideal) (m ((c : Thread nD τ).loc main_arg1))) := by
  refine Eq.trans ?_ (kept8_v6 m ρ c)
  show StableHlo.after hostOps3 (W8 m ρ c) (Proc.devRef .tc main_v6) = _
  dsimp only [hostOps3]
  after_results <;> rfl
theorem kept9_v30 : W9 m ρ c (Proc.devRef .tc main_v30) = (Cert.Net.factors (F := Ideal) (Cert.Net.sources (F := Ideal) (m ((c : Thread nD τ).loc main_arg1))) (Cert.Net.targets (F := Ideal) (m ((c : Thread nD τ).loc main_arg1)))) := by
  refine Eq.trans ?_ (kept8_v30 m ρ c)
  show StableHlo.after hostOps3 (W8 m ρ c) (Proc.devRef .tc main_v30) = _
  dsimp only [hostOps3]
  after_results <;> rfl
theorem kept9_arg2 : W9 m ρ c (Proc.devRef .tc main_arg2) = (m ((c : Thread nD τ).loc main_arg2)) := by
  refine Eq.trans ?_ (kept8_arg2 m ρ c)
  show StableHlo.after hostOps3 (W8 m ρ c) (Proc.devRef .tc main_arg2) = _
  dsimp only [hostOps3]
  after_results <;> rfl
theorem kept9_arg3 : W9 m ρ c (Proc.devRef .tc main_arg3) = (m ((c : Thread nD τ).loc main_arg3)) := by
  refine Eq.trans ?_ (kept8_arg3 m ρ c)
  show StableHlo.after hostOps3 (W8 m ρ c) (Proc.devRef .tc main_arg3) = _
  dsimp only [hostOps3]
  after_results <;> rfl
theorem kept10_v3 : W10 m ρ c (Proc.devRef .tc main_v3) = (Cert.Net.sources (F := Ideal) (m ((c : Thread nD τ).loc main_arg1))) := (W10_of_ne m ρ c main_v3 (by decide)).trans (kept9_v3 m ρ c)
theorem kept10_v6 : W10 m ρ c (Proc.devRef .tc main_v6) = (Cert.Net.targets (F := Ideal) (m ((c : Thread nD τ).loc main_arg1))) := (W10_of_ne m ρ c main_v6 (by decide)).trans (kept9_v6 m ρ c)
theorem kept10_v30 : W10 m ρ c (Proc.devRef .tc main_v30) = (Cert.Net.factors (F := Ideal) (Cert.Net.sources (F := Ideal) (m ((c : Thread nD τ).loc main_arg1))) (Cert.Net.targets (F := Ideal) (m ((c : Thread nD τ).loc main_arg1)))) := (W10_of_ne m ρ c main_v30 (by decide)).trans (kept9_v30 m ρ c)
theorem kept10_arg2 : W10 m ρ c (Proc.devRef .tc main_arg2) = (m ((c : Thread nD τ).loc main_arg2)) := (W10_of_ne m ρ c main_arg2 (by decide)).trans (kept9_arg2 m ρ c)
theorem kept10_arg3 : W10 m ρ c (Proc.devRef .tc main_arg3) = (m ((c : Thread nD τ).loc main_arg3)) := (W10_of_ne m ρ c main_arg3 (by decide)).trans (kept9_arg3 m ρ c)
theorem kept11_v3 : W11 m ρ c (Proc.devRef .tc main_v3) = (Cert.Net.sources (F := Ideal) (m ((c : Thread nD τ).loc main_arg1))) := by
  refine Eq.trans ?_ (kept10_v3 m ρ c)
  show StableHlo.after hostOps4 (W10 m ρ c) (Proc.devRef .tc main_v3) = _
  dsimp only [hostOps4]
  after_results <;> rfl
theorem kept11_v6 : W11 m ρ c (Proc.devRef .tc main_v6) = (Cert.Net.targets (F := Ideal) (m ((c : Thread nD τ).loc main_arg1))) := by
  refine Eq.trans ?_ (kept10_v6 m ρ c)
  show StableHlo.after hostOps4 (W10 m ρ c) (Proc.devRef .tc main_v6) = _
  dsimp only [hostOps4]
  after_results <;> rfl
theorem kept11_v30 : W11 m ρ c (Proc.devRef .tc main_v30) = (Cert.Net.factors (F := Ideal) (Cert.Net.sources (F := Ideal) (m ((c : Thread nD τ).loc main_arg1))) (Cert.Net.targets (F := Ideal) (m ((c : Thread nD τ).loc main_arg1)))) := by
  refine Eq.trans ?_ (kept10_v30 m ρ c)
  show StableHlo.after hostOps4 (W10 m ρ c) (Proc.devRef .tc main_v30) = _
  dsimp only [hostOps4]
  after_results <;> rfl
theorem kept11_arg3 : W11 m ρ c (Proc.devRef .tc main_arg3) = (m ((c : Thread nD τ).loc main_arg3)) := by
  refine Eq.trans ?_ (kept10_arg3 m ρ c)
  show StableHlo.after hostOps4 (W10 m ρ c) (Proc.devRef .tc main_arg3) = _
  dsimp only [hostOps4]
  after_results <;> rfl
theorem kept12_v3 : W12 m ρ c (Proc.devRef .tc main_v3) = (Cert.Net.sources (F := Ideal) (m ((c : Thread nD τ).loc main_arg1))) := (W12_of_ne m ρ c main_v3 (by decide)).trans (kept11_v3 m ρ c)
theorem kept12_v6 : W12 m ρ c (Proc.devRef .tc main_v6) = (Cert.Net.targets (F := Ideal) (m ((c : Thread nD τ).loc main_arg1))) := (W12_of_ne m ρ c main_v6 (by decide)).trans (kept11_v6 m ρ c)
theorem kept12_v30 : W12 m ρ c (Proc.devRef .tc main_v30) = (Cert.Net.factors (F := Ideal) (Cert.Net.sources (F := Ideal) (m ((c : Thread nD τ).loc main_arg1))) (Cert.Net.targets (F := Ideal) (m ((c : Thread nD τ).loc main_arg1)))) := (W12_of_ne m ρ c main_v30 (by decide)).trans (kept11_v30 m ρ c)
theorem kept12_arg3 : W12 m ρ c (Proc.devRef .tc main_arg3) = (m ((c : Thread nD τ).loc main_arg3)) := (W12_of_ne m ρ c main_arg3 (by decide)).trans (kept11_arg3 m ρ c)

/-! ## Layer 0 -/

/-- After the dense region: the product of the layer's input features and its weight matrix. -/
theorem product4 : W4 m ρ c (Proc.devRef .tc main_v33) = (Cert.LibDense.prod (m ((c : Thread nD τ).loc main_arg0)) (Cert.Net.weight (F := Ideal) ![0, 0, 0] Cert.ReferenceIdeal.Facts₀.slices_S3x256x256_S1x256x256_0_0_0 (m ((c : Thread nD τ).loc main_arg2)))) := by
  refine (W4_arr m ρ c 2).trans ((Cert.KernelIdeal.Dense.dense0 (V3 m ρ) c).trans ?_)
  show Cert.LibDense.prod (W3 m ρ c (Proc.devRef .tc main_arg0)) (W3 m ρ c (Proc.devRef .tc main_v32)) = _
  rw [x3 m ρ c, weight3 m ρ c]

set_option maxHeartbeats 4000000 in
/-- After the host stretch: the aggregation of that product over the messages. -/
theorem aggregated5 : W5 m ρ c (Proc.devRef .tc main_v45) = Cert.Net.aggregate (F := Ideal) (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (Cert.LibDense.prod (m ((c : Thread nD τ).loc main_arg0)) (Cert.Net.weight (F := Ideal) ![0, 0, 0] Cert.ReferenceIdeal.Facts₀.slices_S3x256x256_S1x256x256_0_0_0 (m ((c : Thread nD τ).loc main_arg2)))) := by
  have h : W5 m ρ c (Proc.devRef .tc main_v45) = Cert.Net.aggregate (F := Ideal) (W4 m ρ c (Proc.devRef .tc main_v3)) (W4 m ρ c (Proc.devRef .tc main_v6)) (W4 m ρ c (Proc.devRef .tc main_v30)) (W4 m ρ c (Proc.devRef .tc main_v33)) := by
    show StableHlo.after hostOps1 (W4 m ρ c) (Proc.devRef .tc main_v45) = _
    dsimp only [hostOps1]
    after_results_simp <;> rfl
  rw [h, kept4_v3 m ρ c, kept4_v6 m ρ c, kept4_v30 m ρ c, product4 m ρ c]

/-- After the host stretch: the layer's bias as a row. -/
theorem row5 : W5 m ρ c (Proc.devRef .tc main_v48) = (Cert.Net.asRow (F := Ideal) Cert.KernelIdeal.Facts₀.shapeCasts_S256_S1x256 (Cert.Net.bias (F := Ideal) ![0, 0] Cert.ReferenceIdeal.Facts₀.slices_S3x256_S1x256_0_0 (m ((c : Thread nD τ).loc main_arg3)))) := by
  have h : W5 m ρ c (Proc.devRef .tc main_v48) = (Cert.Net.asRow (F := Ideal) Cert.KernelIdeal.Facts₀.shapeCasts_S256_S1x256 (Cert.Net.bias (F := Ideal) ![0, 0] Cert.ReferenceIdeal.Facts₀.slices_S3x256_S1x256_0_0 (W4 m ρ c (Proc.devRef .tc main_arg3)))) := by
    show StableHlo.after hostOps1 (W4 m ρ c) (Proc.devRef .tc main_v48) = _
    dsimp only [hostOps1]
    after_results <;> rfl
  rw [h, kept4_arg3 m ρ c]

/-- After the rectifying region: the layer's output features. -/
theorem features6 : W6 m ρ c (Proc.devRef .tc main_v49) = (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (m ((c : Thread nD τ).loc main_arg0)) (Cert.Net.weight (F := Ideal) ![0, 0, 0] Cert.ReferenceIdeal.Facts₀.slices_S3x256x256_S1x256x256_0_0_0 (m ((c : Thread nD τ).loc main_arg2))) (Cert.Net.asRow (F := Ideal) Cert.KernelIdeal.Facts₀.shapeCasts_S256_S1x256 (Cert.Net.bias (F := Ideal) ![0, 0] Cert.ReferenceIdeal.Facts₀.slices_S3x256_S1x256_0_0 (m ((c : Thread nD τ).loc main_arg3))))) := by
  refine (W6_arr m ρ c 2).trans ((Cert.KernelIdeal.Rectify.rectified1 (V5 m ρ) c).trans ?_)
  show Cert.LibBiasRows.reluRow (W5 m ρ c (Proc.devRef .tc main_v45)) (W5 m ρ c (Proc.devRef .tc main_v48)) = _
  rw [aggregated5 m ρ c, row5 m ρ c]
  rfl

/-- The next host stretch leaves the features where they are … -/
theorem features7 : W7 m ρ c (Proc.devRef .tc main_v49) = (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (m ((c : Thread nD τ).loc main_arg0)) (Cert.Net.weight (F := Ideal) ![0, 0, 0] Cert.ReferenceIdeal.Facts₀.slices_S3x256x256_S1x256x256_0_0_0 (m ((c : Thread nD τ).loc main_arg2))) (Cert.Net.asRow (F := Ideal) Cert.KernelIdeal.Facts₀.shapeCasts_S256_S1x256 (Cert.Net.bias (F := Ideal) ![0, 0] Cert.ReferenceIdeal.Facts₀.slices_S3x256_S1x256_0_0 (m ((c : Thread nD τ).loc main_arg3))))) := by
  refine Eq.trans ?_ (features6 m ρ c)
  show StableHlo.after hostOps2 (W6 m ρ c) (Proc.devRef .tc main_v49) = _
  dsimp only [hostOps2]
  after_results <;> rfl

/-- … and cuts the next layer's weight matrix out of W. -/
theorem weight7 : W7 m ρ c (Proc.devRef .tc main_v51) = (Cert.Net.weight (F := Ideal) ![1, 0, 0] Cert.ReferenceIdeal.Facts₀.slices_S3x256x256_S1x256x256_1_0_0 (m ((c : Thread nD τ).loc main_arg2))) := by
  have h : W7 m ρ c (Proc.devRef .tc main_v51) = (Cert.Net.weight (F := Ideal) ![1, 0, 0] Cert.ReferenceIdeal.Facts₀.slices_S3x256x256_S1x256x256_1_0_0 (W6 m ρ c (Proc.devRef .tc main_arg2))) := by
    show StableHlo.after hostOps2 (W6 m ρ c) (Proc.devRef .tc main_v51) = _
    dsimp only [hostOps2]
    after_results <;> rfl
  rw [h, kept6_arg2 m ρ c]

/-! ## Layer 1 -/

/-- After the dense region: the product of the layer's input features and its weight matrix. -/
theorem product8 : W8 m ρ c (Proc.devRef .tc main_v52) = (Cert.LibDense.prod (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (m ((c : Thread nD τ).loc main_arg0)) (Cert.Net.weight (F := Ideal) ![0, 0, 0] Cert.ReferenceIdeal.Facts₀.slices_S3x256x256_S1x256x256_0_0_0 (m ((c : Thread nD τ).loc main_arg2))) (Cert.Net.asRow (F := Ideal) Cert.KernelIdeal.Facts₀.shapeCasts_S256_S1x256 (Cert.Net.bias (F := Ideal) ![0, 0] Cert.ReferenceIdeal.Facts₀.slices_S3x256_S1x256_0_0 (m ((c : Thread nD τ).loc main_arg3))))) (Cert.Net.weight (F := Ideal) ![1, 0, 0] Cert.ReferenceIdeal.Facts₀.slices_S3x256x256_S1x256x256_1_0_0 (m ((c : Thread nD τ).loc main_arg2)))) := by
  refine (W8_arr m ρ c 2).trans ((Cert.KernelIdeal.Dense.dense2 (V7 m ρ) c).trans ?_)
  show Cert.LibDense.prod (W7 m ρ c (Proc.devRef .tc main_v49)) (W7 m ρ c (Proc.devRef .tc main_v51)) = _
  rw [features7 m ρ c, weight7 m ρ c]

set_option maxHeartbeats 4000000 in
/-- After the host stretch: the aggregation of that product over the messages. -/
theorem aggregated9 : W9 m ρ c (Proc.devRef .tc main_v64) = Cert.Net.aggregate (F := Ideal) (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (Cert.LibDense.prod (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (m ((c : Thread nD τ).loc main_arg0)) (Cert.Net.weight (F := Ideal) ![0, 0, 0] Cert.ReferenceIdeal.Facts₀.slices_S3x256x256_S1x256x256_0_0_0 (m ((c : Thread nD τ).loc main_arg2))) (Cert.Net.asRow (F := Ideal) Cert.KernelIdeal.Facts₀.shapeCasts_S256_S1x256 (Cert.Net.bias (F := Ideal) ![0, 0] Cert.ReferenceIdeal.Facts₀.slices_S3x256_S1x256_0_0 (m ((c : Thread nD τ).loc main_arg3))))) (Cert.Net.weight (F := Ideal) ![1, 0, 0] Cert.ReferenceIdeal.Facts₀.slices_S3x256x256_S1x256x256_1_0_0 (m ((c : Thread nD τ).loc main_arg2)))) := by
  have h : W9 m ρ c (Proc.devRef .tc main_v64) = Cert.Net.aggregate (F := Ideal) (W8 m ρ c (Proc.devRef .tc main_v3)) (W8 m ρ c (Proc.devRef .tc main_v6)) (W8 m ρ c (Proc.devRef .tc main_v30)) (W8 m ρ c (Proc.devRef .tc main_v52)) := by
    show StableHlo.after hostOps3 (W8 m ρ c) (Proc.devRef .tc main_v64) = _
    dsimp only [hostOps3]
    after_results_simp <;> rfl
  rw [h, kept8_v3 m ρ c, kept8_v6 m ρ c, kept8_v30 m ρ c, product8 m ρ c]

/-- After the host stretch: the layer's bias as a row. -/
theorem row9 : W9 m ρ c (Proc.devRef .tc main_v67) = (Cert.Net.asRow (F := Ideal) Cert.KernelIdeal.Facts₀.shapeCasts_S256_S1x256 (Cert.Net.bias (F := Ideal) ![1, 0] Cert.ReferenceIdeal.Facts₀.slices_S3x256_S1x256_1_0 (m ((c : Thread nD τ).loc main_arg3)))) := by
  have h : W9 m ρ c (Proc.devRef .tc main_v67) = (Cert.Net.asRow (F := Ideal) Cert.KernelIdeal.Facts₀.shapeCasts_S256_S1x256 (Cert.Net.bias (F := Ideal) ![1, 0] Cert.ReferenceIdeal.Facts₀.slices_S3x256_S1x256_1_0 (W8 m ρ c (Proc.devRef .tc main_arg3)))) := by
    show StableHlo.after hostOps3 (W8 m ρ c) (Proc.devRef .tc main_v67) = _
    dsimp only [hostOps3]
    after_results <;> rfl
  rw [h, kept8_arg3 m ρ c]

/-- After the rectifying region: the layer's output features. -/
theorem features10 : W10 m ρ c (Proc.devRef .tc main_v68) = (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (m ((c : Thread nD τ).loc main_arg0)) (Cert.Net.weight (F := Ideal) ![0, 0, 0] Cert.ReferenceIdeal.Facts₀.slices_S3x256x256_S1x256x256_0_0_0 (m ((c : Thread nD τ).loc main_arg2))) (Cert.Net.asRow (F := Ideal) Cert.KernelIdeal.Facts₀.shapeCasts_S256_S1x256 (Cert.Net.bias (F := Ideal) ![0, 0] Cert.ReferenceIdeal.Facts₀.slices_S3x256_S1x256_0_0 (m ((c : Thread nD τ).loc main_arg3))))) (Cert.Net.weight (F := Ideal) ![1, 0, 0] Cert.ReferenceIdeal.Facts₀.slices_S3x256x256_S1x256x256_1_0_0 (m ((c : Thread nD τ).loc main_arg2))) (Cert.Net.asRow (F := Ideal) Cert.KernelIdeal.Facts₀.shapeCasts_S256_S1x256 (Cert.Net.bias (F := Ideal) ![1, 0] Cert.ReferenceIdeal.Facts₀.slices_S3x256_S1x256_1_0 (m ((c : Thread nD τ).loc main_arg3))))) := by
  refine (W10_arr m ρ c 2).trans ((Cert.KernelIdeal.Rectify.rectified3 (V9 m ρ) c).trans ?_)
  show Cert.LibBiasRows.reluRow (W9 m ρ c (Proc.devRef .tc main_v64)) (W9 m ρ c (Proc.devRef .tc main_v67)) = _
  rw [aggregated9 m ρ c, row9 m ρ c]
  rfl

/-- The next host stretch leaves the features where they are … -/
theorem features11 : W11 m ρ c (Proc.devRef .tc main_v68) = (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (m ((c : Thread nD τ).loc main_arg0)) (Cert.Net.weight (F := Ideal) ![0, 0, 0] Cert.ReferenceIdeal.Facts₀.slices_S3x256x256_S1x256x256_0_0_0 (m ((c : Thread nD τ).loc main_arg2))) (Cert.Net.asRow (F := Ideal) Cert.KernelIdeal.Facts₀.shapeCasts_S256_S1x256 (Cert.Net.bias (F := Ideal) ![0, 0] Cert.ReferenceIdeal.Facts₀.slices_S3x256_S1x256_0_0 (m ((c : Thread nD τ).loc main_arg3))))) (Cert.Net.weight (F := Ideal) ![1, 0, 0] Cert.ReferenceIdeal.Facts₀.slices_S3x256x256_S1x256x256_1_0_0 (m ((c : Thread nD τ).loc main_arg2))) (Cert.Net.asRow (F := Ideal) Cert.KernelIdeal.Facts₀.shapeCasts_S256_S1x256 (Cert.Net.bias (F := Ideal) ![1, 0] Cert.ReferenceIdeal.Facts₀.slices_S3x256_S1x256_1_0 (m ((c : Thread nD τ).loc main_arg3))))) := by
  refine Eq.trans ?_ (features10 m ρ c)
  show StableHlo.after hostOps4 (W10 m ρ c) (Proc.devRef .tc main_v68) = _
  dsimp only [hostOps4]
  after_results <;> rfl

/-- … and cuts the next layer's weight matrix out of W. -/
theorem weight11 : W11 m ρ c (Proc.devRef .tc main_v70) = (Cert.Net.weight (F := Ideal) ![2, 0, 0] Cert.ReferenceIdeal.Facts₀.slices_S3x256x256_S1x256x256_2_0_0 (m ((c : Thread nD τ).loc main_arg2))) := by
  have h : W11 m ρ c (Proc.devRef .tc main_v70) = (Cert.Net.weight (F := Ideal) ![2, 0, 0] Cert.ReferenceIdeal.Facts₀.slices_S3x256x256_S1x256x256_2_0_0 (W10 m ρ c (Proc.devRef .tc main_arg2))) := by
    show StableHlo.after hostOps4 (W10 m ρ c) (Proc.devRef .tc main_v70) = _
    dsimp only [hostOps4]
    after_results <;> rfl
  rw [h, kept10_arg2 m ρ c]

/-! ## Layer 2 -/

/-- After the dense region: the product of the layer's input features and its weight matrix. -/
theorem product12 : W12 m ρ c (Proc.devRef .tc main_v71) = (Cert.LibDense.prod (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (m ((c : Thread nD τ).loc main_arg0)) (Cert.Net.weight (F := Ideal) ![0, 0, 0] Cert.ReferenceIdeal.Facts₀.slices_S3x256x256_S1x256x256_0_0_0 (m ((c : Thread nD τ).loc main_arg2))) (Cert.Net.asRow (F := Ideal) Cert.KernelIdeal.Facts₀.shapeCasts_S256_S1x256 (Cert.Net.bias (F := Ideal) ![0, 0] Cert.ReferenceIdeal.Facts₀.slices_S3x256_S1x256_0_0 (m ((c : Thread nD τ).loc main_arg3))))) (Cert.Net.weight (F := Ideal) ![1, 0, 0] Cert.ReferenceIdeal.Facts₀.slices_S3x256x256_S1x256x256_1_0_0 (m ((c : Thread nD τ).loc main_arg2))) (Cert.Net.asRow (F := Ideal) Cert.KernelIdeal.Facts₀.shapeCasts_S256_S1x256 (Cert.Net.bias (F := Ideal) ![1, 0] Cert.ReferenceIdeal.Facts₀.slices_S3x256_S1x256_1_0 (m ((c : Thread nD τ).loc main_arg3))))) (Cert.Net.weight (F := Ideal) ![2, 0, 0] Cert.ReferenceIdeal.Facts₀.slices_S3x256x256_S1x256x256_2_0_0 (m ((c : Thread nD τ).loc main_arg2)))) := by
  refine (W12_arr m ρ c 2).trans ((Cert.KernelIdeal.Dense.dense4 (V11 m ρ) c).trans ?_)
  show Cert.LibDense.prod (W11 m ρ c (Proc.devRef .tc main_v68)) (W11 m ρ c (Proc.devRef .tc main_v70)) = _
  rw [features11 m ρ c, weight11 m ρ c]

set_option maxHeartbeats 4000000 in
/-- After the host stretch: the aggregation of that product over the messages. -/
theorem aggregated13 : W13 m ρ c (Proc.devRef .tc main_v83) = Cert.Net.aggregate (F := Ideal) (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (Cert.LibDense.prod (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (m ((c : Thread nD τ).loc main_arg0)) (Cert.Net.weight (F := Ideal) ![0, 0, 0] Cert.ReferenceIdeal.Facts₀.slices_S3x256x256_S1x256x256_0_0_0 (m ((c : Thread nD τ).loc main_arg2))) (Cert.Net.asRow (F := Ideal) Cert.KernelIdeal.Facts₀.shapeCasts_S256_S1x256 (Cert.Net.bias (F := Ideal) ![0, 0] Cert.ReferenceIdeal.Facts₀.slices_S3x256_S1x256_0_0 (m ((c : Thread nD τ).loc main_arg3))))) (Cert.Net.weight (F := Ideal) ![1, 0, 0] Cert.ReferenceIdeal.Facts₀.slices_S3x256x256_S1x256x256_1_0_0 (m ((c : Thread nD τ).loc main_arg2))) (Cert.Net.asRow (F := Ideal) Cert.KernelIdeal.Facts₀.shapeCasts_S256_S1x256 (Cert.Net.bias (F := Ideal) ![1, 0] Cert.ReferenceIdeal.Facts₀.slices_S3x256_S1x256_1_0 (m ((c : Thread nD τ).loc main_arg3))))) (Cert.Net.weight (F := Ideal) ![2, 0, 0] Cert.ReferenceIdeal.Facts₀.slices_S3x256x256_S1x256x256_2_0_0 (m ((c : Thread nD τ).loc main_arg2)))) := by
  have h : W13 m ρ c (Proc.devRef .tc main_v83) = Cert.Net.aggregate (F := Ideal) (W12 m ρ c (Proc.devRef .tc main_v3)) (W12 m ρ c (Proc.devRef .tc main_v6)) (W12 m ρ c (Proc.devRef .tc main_v30)) (W12 m ρ c (Proc.devRef .tc main_v71)) := by
    show StableHlo.after hostOps5 (W12 m ρ c) (Proc.devRef .tc main_v83) = _
    dsimp only [hostOps5]
    after_results_simp <;> rfl
  rw [h, kept12_v3 m ρ c, kept12_v6 m ρ c, kept12_v30 m ρ c, product12 m ρ c]

/-- After the host stretch: the layer's bias as a row. -/
theorem row13 : W13 m ρ c (Proc.devRef .tc main_v86) = (Cert.Net.asRow (F := Ideal) Cert.KernelIdeal.Facts₀.shapeCasts_S256_S1x256 (Cert.Net.bias (F := Ideal) ![2, 0] Cert.ReferenceIdeal.Facts₀.slices_S3x256_S1x256_2_0 (m ((c : Thread nD τ).loc main_arg3)))) := by
  have h : W13 m ρ c (Proc.devRef .tc main_v86) = (Cert.Net.asRow (F := Ideal) Cert.KernelIdeal.Facts₀.shapeCasts_S256_S1x256 (Cert.Net.bias (F := Ideal) ![2, 0] Cert.ReferenceIdeal.Facts₀.slices_S3x256_S1x256_2_0 (W12 m ρ c (Proc.devRef .tc main_arg3)))) := by
    show StableHlo.after hostOps5 (W12 m ρ c) (Proc.devRef .tc main_v86) = _
    dsimp only [hostOps5]
    after_results <;> rfl
  rw [h, kept12_arg3 m ρ c]

/-- After the rectifying region: the layer's output features. -/
theorem features14 : W14 m ρ c (Proc.devRef .tc main_v87) = (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (Cert.Net.layer (Cert.Net.sources (F := Ideal) (m ((c : Thread nD τ).loc main_arg1))) (Cert.Net.targets (F := Ideal) (m ((c : Thread nD τ).loc main_arg1))) (Cert.Net.factors (F := Ideal) (Cert.Net.sources (F := Ideal) (m ((c : Thread nD τ).loc main_arg1))) (Cert.Net.targets (F := Ideal) (m ((c : Thread nD τ).loc main_arg1)))) (m ((c : Thread nD τ).loc main_arg0)) (Cert.Net.weight (F := Ideal) ![0, 0, 0] Cert.ReferenceIdeal.Facts₀.slices_S3x256x256_S1x256x256_0_0_0 (m ((c : Thread nD τ).loc main_arg2))) (Cert.Net.asRow (F := Ideal) Cert.KernelIdeal.Facts₀.shapeCasts_S256_S1x256 (Cert.Net.bias (F := Ideal) ![0, 0] Cert.ReferenceIdeal.Facts₀.slices_S3x256_S1x256_0_0 (m ((c : Thread nD τ).loc main_arg3))))) (Cert.Net.weight (F := Ideal) ![1, 0, 0] Cert.ReferenceIdeal.Facts₀.slices_S3x256x256_S1x256x256_1_0_0 (m ((c : Thread nD τ).loc main_arg2))) (Cert.Net.asRow (F := Ideal) Cert.KernelIdeal.Facts₀.shapeCasts_S256_S1x256 (Cert.Net.bias (F := Ideal) ![1, 0] Cert.ReferenceIdeal.Facts₀.slices_S3x256_S1x256_1_0 (m ((c : Thread nD τ).loc main_arg3))))) (Cert.Net.weight (F := Ideal) ![2, 0, 0] Cert.ReferenceIdeal.Facts₀.slices_S3x256x256_S1x256x256_2_0_0 (m ((c : Thread nD τ).loc main_arg2))) (Cert.Net.asRow (F := Ideal) Cert.KernelIdeal.Facts₀.shapeCasts_S256_S1x256 (Cert.Net.bias (F := Ideal) ![2, 0] Cert.ReferenceIdeal.Facts₀.slices_S3x256_S1x256_2_0 (m ((c : Thread nD τ).loc main_arg3))))) := by
  refine (W14_arr m ρ c 2).trans ((Cert.KernelIdeal.Rectify.rectified5 (V13 m ρ) c).trans ?_)
  show Cert.LibBiasRows.reluRow (W13 m ρ c (Proc.devRef .tc main_v83)) (W13 m ρ c (Proc.devRef .tc main_v86)) = _
  rw [aggregated13 m ρ c, row13 m ρ c]
  rfl

/-! ## The result -/

/-- The result buffer at the last boundary is the network of the four argument arrays as launched. -/
theorem result : W14 m ρ c (Proc.devRef .tc main_v87)
    = Cert.Net.network Cert.KernelIdeal.Facts₀.shapeCasts_S256_S1x256 (m ((c : Thread nD τ).loc main_arg0)) (m ((c : Thread nD τ).loc main_arg1)) (m ((c : Thread nD τ).loc main_arg2)) (m ((c : Thread nD τ).loc main_arg3)) :=
  features14 m ρ c

end Cert.KernelIdeal.Fold

end
-- ==== Proof.RefLayer.lean ====
/-
  A layer as the reference spells it is the specification's layer.

  The reference spells a layer as: the host's matrix product of the features and the weight matrix, the aggregation over the
  messages, the bias vector [256] laid out as [1, 256] and repeated down the 50000 rows and added, and the larger of that
  and a zero repeated everywhere.  Entry (r, j) of the host's product is the row-by-column sum; the repeated bias read at
  (r, j) is the vector's entry j, which is also what the vector laid out as a row holds at (0, j); the repeated zero is zero
  at every entry.  The bias-and-rectifier step is compared for an arbitrary matrix in place of the aggregation, which is
  never opened.  So the two layers agree, for any features, weights, bias and messages.
-/
import proofs.«128485_j13271448945348_1_alg».proof.ReferenceIdeal
import proofs.«128485_j13271448945348_1_alg».proof.Proof.Gen.ReferenceIdeal
import proofs.«128485_j13271448945348_1_alg».proof.Proof.Net
import Idealize.ShloMosaic.Lib.Pipeline.Value
import Idealize.ShloMosaic.Lib.IdealHost

set_option maxRecDepth 16384

noncomputable section

namespace Cert.ReferenceIdeal.Spelt

open Idealize.ShloMosaic Idealize.ShloMosaic.TcCoe Idealize.ShloMosaic.ValueIdx Idealize.SL.Sem
open Cert.ReferenceIdeal Cert.ReferenceIdeal.Facts₀ Cert.ReferenceIdeal.Facts

/-- A layer as the reference's host operations spell it. -/
def hostLayer (src dst : (⟨S850000, .i32⟩ : BufTy).Contents (Elt Ideal)) (nrm : (⟨S850000x1, .f32⟩ : BufTy).Contents (Elt Ideal))
    (h : FVec Ideal S50000x256 .f32) (w : FVec Ideal S256x256 .f32) (bv : FVec Ideal S256 .f32) : FVec Ideal S50000x256 .f32 :=
  maximumf (F := Ideal) (addf (F := Ideal) (Cert.Net.aggregate (F := Ideal) src dst nrm (Host.dotGeneral (F := Ideal) (φ₁ := .f32) (φ₂ := .f32) dot_S50000x256_S256x256_S50000x256_1_0_0_1_n_n none h w)) (broadcastInDim S50000x256 ![0, 1] bcast_S1x256_S50000x256_0_1 (broadcastInDim S1x256 ![1] bcast_S256_S1x256_1 bv))) (broadcastInDim S50000x256 ![] bcast_S_S50000x256 (constant (F := Ideal) S_ .f32 0x00000000#32))

/-- The printed dimensions of the host's product are those of a plain [50000, 256] × [256, 256] product. -/
theorem plain_dims : dot_S50000x256_S256x256_S50000x256_1_0_0_1_n_n = DotDims.plain 50000 256 256 := rfl

/-- The host's matrix product is the row-by-column sum at every entry. -/
theorem product_eq (h : FVec Ideal S50000x256 .f32) (w : FVec Ideal S256x256 .f32) :
    Host.dotGeneral (F := Ideal) (φ₁ := .f32) (φ₂ := .f32) dot_S50000x256_S256x256_S50000x256_1_0_0_1_n_n none h w = Cert.LibDense.prod h w := by
  funext i
  rw [plain_dims]
  exact Cert.LibDense.dotGeneral_plain (M := 50000) (K := 256) (N := 256) .single h w i

/-- The bias vector laid out as [1, 256] and repeated down the rows, at (r, j), is its entry j. -/
theorem bias_repeated (bv : FVec Ideal S256 .f32) (i : S50000x256.Idx) :
    broadcastInDim S50000x256 ![0, 1] bcast_S1x256_S50000x256_0_1 (broadcastInDim S1x256 ![1] bcast_S256_S1x256_1 bv) i = bv (ix1 (i 1)) := by
  refine (broadcastInDim_apply ![0, 1] bcast_S1x256_S50000x256_0_1 _ i (ix2 (⟨0, Nat.one_pos⟩ : Fin 1) (i 1)) (fun a => ?_)).trans
    (broadcastInDim_apply ![1] bcast_S256_S1x256_1 bv (ix2 (⟨0, Nat.one_pos⟩ : Fin 1) (i 1)) (ix1 (i 1)) (fun a => ?_))
  · match a with
    | ⟨0, _⟩ => exact (if_pos rfl).symm
    | ⟨1, _⟩ => exact (if_neg (by decide : ¬ (256 : ℕ) = 1)).symm
  · match a with
    | ⟨0, _⟩ => exact (if_neg (by decide : ¬ (256 : ℕ) = 1)).symm

/-- The zero repeated everywhere is zero at every entry. -/
theorem zero_repeated (i : S50000x256.Idx) :
    broadcastInDim S50000x256 ![] bcast_S_S50000x256 (constant (F := Ideal) S_ .f32 0x00000000#32) i = Ideal.ofBits .f32 0x00000000#32 :=
  broadcastInDim_scalar_apply bcast_S_S50000x256 _ i

/-- For ANY matrix `A`: the repeated bias added and the larger of that and the repeated zero is the rectified sum of `A` and
    the bias laid out as a row. -/
theorem rectified_eq (hc : S256.ShapeCasts S1x256) (A : FVec Ideal S50000x256 .f32) (bv : FVec Ideal S256 .f32) :
    maximumf (F := Ideal) (addf (F := Ideal) A (broadcastInDim S50000x256 ![0, 1] bcast_S1x256_S50000x256_0_1 (broadcastInDim S1x256 ![1] bcast_S256_S1x256_1 bv))) (broadcastInDim S50000x256 ![] bcast_S_S50000x256 (constant (F := Ideal) S_ .f32 0x00000000#32))
      = Cert.LibBiasRows.reluRow A (shapeCast S1x256 bv hc) := by
  funext i
  show max (A i + broadcastInDim S50000x256 ![0, 1] bcast_S1x256_S50000x256_0_1 (broadcastInDim S1x256 ![1] bcast_S256_S1x256_1 bv) i)
      (broadcastInDim S50000x256 ![] bcast_S_S50000x256 (constant (F := Ideal) S_ .f32 0x00000000#32) i)
    = max (A i + shapeCast S1x256 bv hc (ix2 (⟨0, Nat.one_pos⟩ : Fin 1) (i 1))) (Ideal.ofBits .f32 0x00000000#32)
  rw [bias_repeated, zero_repeated, Cert.LibBiasRows.row_of_vector bv hc (i 1)]

/-- The spelt layer is the specification's layer, with the bias vector laid out as a row. -/
theorem hostLayer_eq (hc : S256.ShapeCasts S1x256) (src dst : (⟨S850000, .i32⟩ : BufTy).Contents (Elt Ideal))
    (nrm : (⟨S850000x1, .f32⟩ : BufTy).Contents (Elt Ideal)) (h : FVec Ideal S50000x256 .f32) (w : FVec Ideal S256x256 .f32) (bv : FVec Ideal S256 .f32) :
    hostLayer src dst nrm h w bv = Cert.Net.layer src dst nrm h w (Cert.Net.asRow (F := Ideal) hc bv) := by
  unfold hostLayer Cert.Net.layer Cert.Net.asRow
  rw [product_eq]
  exact rectified_eq hc _ bv

end Cert.ReferenceIdeal.Spelt

end
-- ==== Proof.RefNet.lean ====
/-
  The idealized reference's result is the network.

  The reference computes the messages with the same host operations as the specification and then three layers in its own
  spelling, each over the one set of messages with its own slab of W and row of b: its run's result term is those three
  spelt layers with every definition written out.  A spelt layer is the specification's layer, so the result is the network
  of the four argument arrays.
-/
import proofs.«128485_j13271448945348_1_alg».proof.Proof.RefRunPatched
import proofs.«128485_j13271448945348_1_alg».proof.Proof.RefLayer

set_option maxRecDepth 16384

noncomputable section

namespace Cert.ReferenceIdeal.Spelt

open Idealize.ShloMosaic Idealize.ShloMosaic.TcCoe Idealize.ShloMosaic.ValueIdx Idealize.SL.Sem
open Cert.ReferenceIdeal Cert.ReferenceIdeal.Facts₀ Cert.ReferenceIdeal.Facts

/-- The run's result term is three spelt layers over the one set of messages (the definitions unfold to the term). -/
theorem result_spelt (m : (ℓ : Loc nD τ sig) → Buf (Elt Ideal) ℓ) (c : Dev nD) :
    Cert.ReferenceIdeal.ValueP.res_main_v93 (F := Ideal) m c = (hostLayer (Cert.Net.sources (F := Ideal) (m ((c.tc : Thread nD τ).loc main_arg1))) (Cert.Net.targets (F := Ideal) (m ((c.tc : Thread nD τ).loc main_arg1))) (Cert.Net.factors (F := Ideal) (Cert.Net.sources (F := Ideal) (m ((c.tc : Thread nD τ).loc main_arg1))) (Cert.Net.targets (F := Ideal) (m ((c.tc : Thread nD τ).loc main_arg1)))) (hostLayer (Cert.Net.sources (F := Ideal) (m ((c.tc : Thread nD τ).loc main_arg1))) (Cert.Net.targets (F := Ideal) (m ((c.tc : Thread nD τ).loc main_arg1))) (Cert.Net.factors (F := Ideal) (Cert.Net.sources (F := Ideal) (m ((c.tc : Thread nD τ).loc main_arg1))) (Cert.Net.targets (F := Ideal) (m ((c.tc : Thread nD τ).loc main_arg1)))) (hostLayer (Cert.Net.sources (F := Ideal) (m ((c.tc : Thread nD τ).loc main_arg1))) (Cert.Net.targets (F := Ideal) (m ((c.tc : Thread nD τ).loc main_arg1))) (Cert.Net.factors (F := Ideal) (Cert.Net.sources (F := Ideal) (m ((c.tc : Thread nD τ).loc main_arg1))) (Cert.Net.targets (F := Ideal) (m ((c.tc : Thread nD τ).loc main_arg1)))) (m ((c.tc : Thread nD τ).loc main_arg0)) (Cert.Net.weight (F := Ideal) ![0, 0, 0] slices_S3x256x256_S1x256x256_0_0_0 (m ((c.tc : Thread nD τ).loc main_arg2))) (Cert.Net.bias (F := Ideal) ![0, 0] slices_S3x256_S1x256_0_0 (m ((c.tc : Thread nD τ).loc main_arg3)))) (Cert.Net.weight (F := Ideal) ![1, 0, 0] slices_S3x256x256_S1x256x256_1_0_0 (m ((c.tc : Thread nD τ).loc main_arg2))) (Cert.Net.bias (F := Ideal) ![1, 0] slices_S3x256_S1x256_1_0 (m ((c.tc : Thread nD τ).loc main_arg3)))) (Cert.Net.weight (F := Ideal) ![2, 0, 0] slices_S3x256x256_S1x256x256_2_0_0 (m ((c.tc : Thread nD τ).loc main_arg2))) (Cert.Net.bias (F := Ideal) ![2, 0] slices_S3x256_S1x256_2_0 (m ((c.tc : Thread nD τ).loc main_arg3)))) := by
  unfold Cert.ReferenceIdeal.ValueP.res_main_v93 hostLayer Cert.Net.aggregate Cert.Net.factors Cert.Net.factorsOf Cert.Net.invSqrtDegree Cert.Net.degree
    Cert.Net.column Cert.Net.wrapped Cert.Net.sources Cert.Net.targets Cert.Net.endpoints Cert.Net.weight Cert.Net.bias
  rfl

/-- The reference's result is the network of its four argument arrays. -/
theorem result (hc : S256.ShapeCasts S1x256) (m : (ℓ : Loc nD τ sig) → Buf (Elt Ideal) ℓ) (c : Dev nD) :
    Cert.ReferenceIdeal.ValueP.res_main_v93 (F := Ideal) m c
      = Cert.Net.network hc (m ((c.tc : Thread nD τ).loc main_arg0)) (m ((c.tc : Thread nD τ).loc main_arg1))
          (m ((c.tc : Thread nD τ).loc main_arg2)) (m ((c.tc : Thread nD τ).loc main_arg3)) := by
  rw [result_spelt]
  unfold Cert.Net.network
  rw [hostLayer_eq hc, hostLayer_eq hc, hostLayer_eq hc]

end Cert.ReferenceIdeal.Spelt

end
-- ==== Proof.lean ====
/-
  A three-layer graph convolution: the kernel against its reference.

  Both programs compute, from node features x, an edge list, weights W and biases b, three layers of
  h ↦ max (aggregate (h · W_l) + b_l, 0), where the aggregation sends every source row, scaled by the message's
  factor d(src) · d(dst), to its target and sums there.  The kernel runs the dense product and the bias-with-rectifier
  step of each layer as pipelined regions over ten blocks of 5000 rows and leaves the gather and the scatter-add to the
  host; the reference does everything on the host.  On the extended reals a change of float format keeps the value,
  so the regions' products are the row-by-column sums the host's product is, the blocks tile the rows, and the
  messages and the aggregation are the same host operations on both sides: both results are one function of the
  arguments, `Cert.Net.network`.  No finiteness of the inputs is used.

  The pieces: Proof/Net.lean (the network), Proof/DenseBlocks.lean and Proof/RectifyBlocks.lean (a region's output array
  as a whole), Proof/KernelRun.lean (the kernel's run with its result named), Proof/KernelFold.lean (that result read back
  through the segments), Proof/RefRunPatched.lean (the reference's run) and Proof/RefNet.lean (its result is the network),
  over Proof/LibDense.lean and Proof/LibBiasRows.lean.
-/
import proofs.«128485_j13271448945348_1_alg».proof.Defs
import proofs.«128485_j13271448945348_1_alg».proof.Proof.Gen.Kernel
import proofs.«128485_j13271448945348_1_alg».proof.Proof.Gen.Kernel.Frame
import proofs.«128485_j13271448945348_1_alg».proof.Proof.Gen.KernelIdeal
import proofs.«128485_j13271448945348_1_alg».proof.Proof.Gen.KernelIdeal.Frame
import proofs.«128485_j13271448945348_1_alg».proof.Proof.Gen.ReferenceIdeal
import proofs.«128485_j13271448945348_1_alg».proof.Proof.Gen.Pre_finite_inputs
import proofs.«128485_j13271448945348_1_alg».proof.Proof.KernelRun
import proofs.«128485_j13271448945348_1_alg».proof.Proof.KernelFold
import proofs.«128485_j13271448945348_1_alg».proof.Proof.RefRunPatched
import proofs.«128485_j13271448945348_1_alg».proof.Proof.RefNet
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the network of those arguments. -/
theorem algebraic : Cert.algebraic_KernelIdeal_ReferenceIdeal := by
  intro m ρ m' ρ' _ hagree
  refine ⟨fun c => Cert.Net.network Cert.KernelIdeal.Facts₀.shapeCasts_S256_S1x256
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Fold.result m ρ c), (h c).2⟩)
      (Cert.KernelIdeal.Final.run_final m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Spelt.result Cert.KernelIdeal.Facts₀.shapeCasts_S256_S1x256 m' c,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
